-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x128 : Shape := ⟨3, ![4096, 49, 128]⟩
abbrev S64x49x49 : Shape := ⟨3, ![64, 49, 49]⟩
abbrev S128x128 : Shape := ⟨2, ![128, 128]⟩
abbrev S128 : Shape := ⟨1, ![128]⟩
abbrev S169x4 : Shape := ⟨2, ![169, 4]⟩
abbrev S49x49 : Shape := ⟨2, ![49, 49]⟩
abbrev S_ : Shape := ⟨0, ![]⟩

class Facts : Prop where
  bcast_S_S4096x49x128 : S_.BroadcastsInDim S4096x49x128 (![] : Fin 0 → Fin S4096x49x128.rank)
  reducesTo_S4096x49x128_S_d0_1_2 : S4096x49x128.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S169x4 : S_.BroadcastsInDim S169x4 (![] : Fin 0 → Fin S169x4.rank)
  reducesTo_S169x4_S_d0_1 : S169x4.ReducesTo [0, 1] S_

variable [Facts]

def fn_part2 {F : FTy → Type} [FloatOps F] (main_arg7 : FVec F S169x4 .f32) (main_v33 : IVec S_ 1) : IVec S_ 1 :=
  let main_v34 : FVec F S169x4 .f32 := Host.absf main_arg7
  let main_cst_12 : FVec F S_ .f32 := constant S_ .f32 0x7F800000#32
  let main_v35 : FVec F S169x4 .f32 := broadcastInDim S169x4 ![] bcast_S_S169x4 main_cst_12
  let main_v36 : IVec S169x4 1 := cmpf .olt main_v34 main_v35
  let main_c_13 : IVec S_ 1 := constantI S_ 1 1#1
  let main_v37 : IVec S_ 1 := (fun x v => Host.reduce IntOp.andi x v reducesTo_S169x4_S_d0_1 h_S_) main_v36 main_c_13
  let main_v38 : IVec S_ 1 := andi main_v33 main_v37
  main_v38

def fn_part1 {F : FTy → Type} [FloatOps F] (main_arg4 : FVec F S128x128 .f32) (main_arg5 : FVec F S128x128 .f32) (main_arg6 : FVec F S128 .f32) (main_arg7 : FVec F S169x4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S4096x49x128 .f32) (main_arg1 : FVec F S64x49x49 .f32) (main_arg2 : FVec F S128x128 .f32) (main_arg3 : FVec F S128x128 .f32) (main_arg4 : FVec F S128x128 .f32) (main_arg5 : FVec F S128x128 .f32) (main_arg6 : FVec F S128 .f32) (main_arg7 : FVec F S169x4 .f32) (main_arg8 : IVec S49x49 32) : IVec S_ 1 :=
  let main_v0 : FVec F S4096x49x128 .f32 := Host.absf main_arg0
  let main_cst : FVec F S_ .f32 := constant S_ .f32 0x7F800000#32
  let main_v1 : FVec F S4096x49x128 .f32 := broadcastInDim S4096x49x128 ![] bcast_S_S4096x49x128 main_cst
  let main_v2 : IVec S4096x49x128 1 := cmpf .olt main_v0 main_v1
  let main_c : IVec S_ 1 := constantI S_ 1 1#1
  let main_v3 : IVec S_ 1 := (fun x v => Host.reduce IntOp.andi x v reducesTo_S4096x49x128_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S4096x49x128 : Shape := ⟨3, ![4096, 49, 128]⟩
abbrev S64x49x49 : Shape := ⟨3, ![64, 49, 49]⟩
abbrev S128x128 : Shape := ⟨2, ![128, 128]⟩
abbrev S128 : Shape := ⟨1, ![128]⟩
abbrev S169x4 : Shape := ⟨2, ![169, 4]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x4 : Shape := ⟨2, ![2401, 4]⟩
abbrev S49x49x4 : Shape := ⟨3, ![49, 49, 4]⟩
abbrev S4x49x49 : Shape := ⟨3, ![4, 49, 49]⟩
abbrev S64x49x128 : Shape := ⟨3, ![64, 49, 128]⟩
abbrev S3136x128 : Shape := ⟨2, ![3136, 128]⟩
abbrev S32x128 : Shape := ⟨2, ![32, 128]⟩
abbrev S3136x32 : Shape := ⟨2, ![3136, 32]⟩
abbrev S64x49x32 : Shape := ⟨3, ![64, 49, 32]⟩
abbrev S1x49x49 : Shape := ⟨3, ![1, 49, 49]⟩
abbrev S64x49 : Shape := ⟨2, ![64, 49]⟩
abbrev S64x49x1 : Shape := ⟨3, ![64, 49, 1]⟩
abbrev S1x128 : Shape := ⟨2, ![1, 128]⟩

abbrev nBuf : Space → Nat
  | .hbm => 22
  | .vmem => 11
  | .smem => 0
  | _ => 0

abbrev bufTy : (tb : Table) → Fin (tcTables nBuf tb) → BufTy
  | .hbm, ⟨0, _⟩ => ⟨S4096x49x128, .f32⟩
  | .hbm, ⟨1, _⟩ => ⟨S64x49x49, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S169x4, .f32⟩
  | .hbm, ⟨8, _⟩ => ⟨S49x49, .i32⟩
  | .hbm, ⟨9, _⟩ => ⟨S2401, .i32⟩
  | .hbm, ⟨10, _⟩ => ⟨S_, .i32⟩
  | .hbm, ⟨11, _⟩ => ⟨S2401, .i32⟩
  | .hbm, ⟨12, _⟩ => ⟨S2401, .i1⟩
  | .hbm, ⟨13, _⟩ => ⟨S_, .i32⟩
  | .hbm, ⟨14, _⟩ => ⟨S2401, .i32⟩
  | .hbm, ⟨15, _⟩ => ⟨S2401, .i32⟩
  | .hbm, ⟨16, _⟩ => ⟨S2401, .i32⟩
  | .hbm, ⟨17, _⟩ => ⟨S2401x1, .i32⟩
  | .hbm, ⟨18, _⟩ => ⟨S2401x4, .f32⟩
  | .hbm, ⟨19, _⟩ => ⟨S49x49x4, .f32⟩
  | .hbm, ⟨20, _⟩ => ⟨S4x49x49, .f32⟩
  | .hbm, ⟨21, _⟩ => ⟨S4096x49x128, .f32⟩
  | .local _ .vmem, ⟨0, _⟩ => ⟨S64x49x128, .f32⟩
  | .local _ .vmem, ⟨1, _⟩ => ⟨S64x49x128, .f32⟩
  | .local _ .vmem, ⟨2, _⟩ => ⟨S64x49x49, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S4x49x49, .f32⟩
  | .local _ .vmem, ⟨9, _⟩ => ⟨S64x49x128, .f32⟩
  | .local _ .vmem, ⟨10, _⟩ => ⟨S64x49x128, .f32⟩
  | _, _ => ⟨S4096x49x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x49x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x49x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x49x49 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x49x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x4_S49x49x4 : S2401x4.ShapeCasts S49x49x4
  transposes_S49x49x4_S4x49x49_2_0_1 : S49x49x4.Transposes [2, 0, 1] S4x49x49
  inb_S64x49x128_S64x49x128_0_0_0 : ∀ a, (![0, 0, 0] : Fin 3 → Nat) a + S64x49x128.size a ≤ S64x49x128.size a
  h_S64x49x128 : 0 < S64x49x128.numel
  shapeCasts_S64x49x128_S3136x128 : S64x49x128.ShapeCasts S3136x128
  inb_S64x49x49_S64x49x49_0_0_0 : ∀ a, (![0, 0, 0] : Fin 3 → Nat) a + S64x49x49.size a ≤ S64x49x49.size a
  h_S64x49x49 : 0 < S64x49x49.numel
  inb_S128x128_S32x128_0_0 : ∀ a, (![0, 0] : Fin 2 → Nat) a + S32x128.size a ≤ S128x128.size a
  h_S32x128 : 0 < S32x128.numel
  shapeCasts_S3136x32_S64x49x32 : S3136x32.ShapeCasts S64x49x32
  inb_S4x49x49_S1x49x49_0_0_0 : ∀ a, (![0, 0, 0] : Fin 3 → Nat) a + S1x49x49.size a ≤ S4x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S64x49x49 : S1x49x49.Broadcasts S64x49x49
  reduces_S64x49x49_S64x49 : S64x49x49.Reduces [2] S64x49
  shapeCasts_S64x49_S64x49x1 : S64x49.ShapeCasts S64x49x1
  broadcasts_S64x49x1_S64x49x49 : S64x49x1.Broadcasts S64x49x49
  inb_S128x128_S32x128_32_0 : ∀ a, (![32, 0] : Fin 2 → Nat) a + S32x128.size a ≤ S128x128.size a
  inb_S4x49x49_S1x49x49_1_0_0 : ∀ a, (![1, 0, 0] : Fin 3 → Nat) a + S1x49x49.size a ≤ S4x49x49.size a
  inb_S128x128_S32x128_64_0 : ∀ a, (![64, 0] : Fin 2 → Nat) a + S32x128.size a ≤ S128x128.size a
  inb_S4x49x49_S1x49x49_2_0_0 : ∀ a, (![2, 0, 0] : Fin 3 → Nat) a + S1x49x49.size a ≤ S4x49x49.size a
  inb_S128x128_S32x128_96_0 : ∀ a, (![96, 0] : Fin 2 → Nat) a + S32x128.size a ≤ S128x128.size a
  inb_S4x49x49_S1x49x49_3_0_0 : ∀ a, (![3, 0, 0] : Fin 3 → Nat) a + S1x49x49.size a ≤ S4x49x49.size a
  concatenates_S64x49x32_S64x49x32_S64x49x32_S64x49x32_S64x49x128_d2 : Shape.Concatenates [S64x49x32, S64x49x32, S64x49x32, S64x49x32] S64x49x128 2
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S3136x128 : S1x128.Broadcasts S3136x128
  shapeCasts_S3136x128_S64x49x128 : S3136x128.ShapeCasts S64x49x128
  gather_S169x4_S2401x1_S2401x4_1_0_n_n_0_1_14_wf : GatherDims.WF S169x4 S2401x1 S2401x4 [1] [0] [] [0] [] 1 ![1, 4]
  dot_S3136x128_S32x128_S3136x32_1_1_0_0_n_n_wf : DotDims.WF S3136x128 S32x128 S3136x32 [1] [1] [0] [0] [] []
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  dot_S3136x128_S128x128_S3136x128_1_1_0_0_n_n_wf : DotDims.WF S3136x128 S128x128 S3136x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x49x128.size a ≤ S4096x49x128.size a
  hwx0_0 : ∀ i : grid0.Coords, EltTy.bits .f32 = 32 ∨ (Rect.block (s := S4096x49x128) S64x49x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x49x49.size a ≤ S64x49x49.size a
  hwx0_1 : ∀ i : grid0.Coords, EltTy.bits .f32 = 32 ∨ (Rect.block (s := S64x49x49) S64x49x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x49x49.size a ≤ S4x49x49.size a
  hwx0_7 : ∀ i : grid0.Coords, EltTy.bits .f32 = 32 ∨ (Rect.block (s := S4x49x49) S4x49x49.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x49x128.size a ≤ S4096x49x128.size a
  hwx0_8 : ∀ i : grid0.Coords, EltTy.bits .f32 = 32 ∨ (Rect.block (s := S4096x49x128) S64x49x128.size (cc0_transform_8 i) (hinb0_8 i)).WholeWords (EltTy.packing .f32)

variable [Facts₀]

def gather_S169x4_S2401x1_S2401x4_1_0_n_n_0_1_14 : GatherDims S169x4 S2401x1 S2401x4 where
  offsetDims := [1]
  collapsedSliceDims := [0]
  operandBatchingDims := []
  startIndicesBatchingDims := []
  startIndexMap := [0]
  indexVectorDim := 1
  sliceSizes := ![1, 4]
  wf := gather_S169x4_S2401x1_S2401x4_1_0_n_n_0_1_14_wf
def dot_S3136x128_S32x128_S3136x32_1_1_0_0_n_n : DotDims S3136x128 S32x128 S3136x32 where
  lhsContracting := [1]
  rhsContracting := [1]
  lhsNonContracting := [0]
  rhsNonContracting := [0]
  lhsBatch := []
  rhsBatch := []
  wf := dot_S3136x128_S32x128_S3136x32_1_1_0_0_n_n_wf
def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf
def dot_S3136x128_S128x128_S3136x128_1_1_0_0_n_n : DotDims S3136x128 S128x128 S3136x128 where
  lhsContracting := [1]
  rhsContracting := [1]
  lhsNonContracting := [0]
  rhsNonContracting := [0]
  lhsBatch := []
  rhsBatch := []
  wf := dot_S3136x128_S128x128_S3136x128_1_1_0_0_n_n_wf

abbrev win0_0 : Pipeline.Window sig grid0 :=
  Pipeline.Window.ofSpec (Memref.whole main_arg0) S64x49x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x49x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4x49x49.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S64x49x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x49x128 : Shape := ⟨3, ![4096, 49, 128]⟩
abbrev S64x49x49 : Shape := ⟨3, ![64, 49, 49]⟩
abbrev S128x128 : Shape := ⟨2, ![128, 128]⟩
abbrev S128 : Shape := ⟨1, ![128]⟩
abbrev S169x4 : Shape := ⟨2, ![169, 4]⟩
abbrev S49x49 : Shape := ⟨2, ![49, 49]⟩
abbrev S4096x49x4x32 : Shape := ⟨4, ![4096, 49, 4, 32]⟩
abbrev S4096x4x49x32 : Shape := ⟨4, ![4096, 4, 49, 32]⟩
abbrev S4096x4x49x49 : Shape := ⟨4, ![4096, 4, 49, 49]⟩
abbrev S_ : Shape := ⟨0, ![]⟩
abbrev S2401 : Shape := ⟨1, ![2401]⟩
abbrev S2401x1 : Shape := ⟨2, ![2401, 1]⟩
abbrev S2401x4 : Shape := ⟨2, ![2401, 4]⟩
abbrev S49x49x4 : Shape := ⟨3, ![49, 49, 4]⟩
abbrev S4x49x49 : Shape := ⟨3, ![4, 49, 49]⟩
abbrev S1x4x49x49 : Shape := ⟨4, ![1, 4, 49, 49]⟩
abbrev S64x64x4x49x49 : Shape := ⟨5, ![64, 64, 4, 49, 49]⟩
abbrev S1x64x1x49x49 : Shape := ⟨5, ![1, 64, 1, 49, 49]⟩
abbrev S4096x4x49 : Shape := ⟨3, ![4096, 4, 49]⟩
abbrev S4096x4x49x1 : Shape := ⟨4, ![4096, 4, 49, 1]⟩
abbrev S4096x4x32x49 : Shape := ⟨4, ![4096, 4, 32, 49]⟩
abbrev S1x1x128 : Shape := ⟨3, ![1, 1, 128]⟩

abbrev nBuf : Space → Nat
  | .hbm => 63
  | .vmem => 0
  | .smem => 0
  | _ => 0

abbrev bufTy : (tb : Table) → Fin (tcTables nBuf tb) → BufTy
  | .hbm, ⟨0, _⟩ => ⟨S4096x49x128, .f32⟩
  | .hbm, ⟨1, _⟩ => ⟨S64x49x49, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S169x4, .f32⟩
  | .hbm, ⟨8, _⟩ => ⟨S49x49, .i32⟩
  | .hbm, ⟨9, _⟩ => ⟨S4096x49x128, .f32⟩
  | .hbm, ⟨10, _⟩ => ⟨S4096x49x4x32, .f32⟩
  | .hbm, ⟨11, _⟩ => ⟨S4096x4x49x32, .f32⟩
  | .hbm, ⟨12, _⟩ => ⟨S4096x49x128, .f32⟩
  | .hbm, ⟨13, _⟩ => ⟨S4096x49x4x32, .f32⟩
  | .hbm, ⟨14, _⟩ => ⟨S4096x4x49x32, .f32⟩
  | .hbm, ⟨15, _⟩ => ⟨S4096x49x128, .f32⟩
  | .hbm, ⟨16, _⟩ => ⟨S4096x49x4x32, .f32⟩
  | .hbm, ⟨17, _⟩ => ⟨S4096x4x49x32, .f32⟩
  | .hbm, ⟨18, _⟩ => ⟨S4096x4x49x49, .f32⟩
  | .hbm, ⟨19, _⟩ => ⟨S_, .f32⟩
  | .hbm, ⟨20, _⟩ => ⟨S4096x4x49x49, .f32⟩
  | .hbm, ⟨21, _⟩ => ⟨S4096x4x49x49, .f32⟩
  | .hbm, ⟨22, _⟩ => ⟨S2401, .i32⟩
  | .hbm, ⟨23, _⟩ => ⟨S_, .i32⟩
  | .hbm, ⟨24, _⟩ => ⟨S2401, .i32⟩
  | .hbm, ⟨25, _⟩ => ⟨S2401, .i1⟩
  | .hbm, ⟨26, _⟩ => ⟨S_, .i32⟩
  | .hbm, ⟨27, _⟩ => ⟨S2401, .i32⟩
  | .hbm, ⟨28, _⟩ => ⟨S2401, .i32⟩
  | .hbm, ⟨29, _⟩ => ⟨S2401, .i32⟩
  | .hbm, ⟨30, _⟩ => ⟨S2401x1, .i32⟩
  | .hbm, ⟨31, _⟩ => ⟨S2401x4, .f32⟩
  | .hbm, ⟨32, _⟩ => ⟨S49x49x4, .f32⟩
  | .hbm, ⟨33, _⟩ => ⟨S4x49x49, .f32⟩
  | .hbm, ⟨34, _⟩ => ⟨S1x4x49x49, .f32⟩
  | .hbm, ⟨35, _⟩ => ⟨S4096x4x49x49, .f32⟩
  | .hbm, ⟨36, _⟩ => ⟨S4096x4x49x49, .f32⟩
  | .hbm, ⟨37, _⟩ => ⟨S64x64x4x49x49, .f32⟩
  | .hbm, ⟨38, _⟩ => ⟨S1x64x1x49x49, .f32⟩
  | .hbm, ⟨39, _⟩ => ⟨S64x64x4x49x49, .f32⟩
  | .hbm, ⟨40, _⟩ => ⟨S64x64x4x49x49, .f32⟩
  | .hbm, ⟨41, _⟩ => ⟨S4096x4x49x49, .f32⟩
  | .hbm, ⟨42, _⟩ => ⟨S_, .f32⟩
  | .hbm, ⟨43, _⟩ => ⟨S4096x4x49, .f32⟩
  | .hbm, ⟨44, _⟩ => ⟨S_, .f32⟩
  | .hbm, ⟨45, _⟩ => ⟨S4096x4x49, .f32⟩
  | .hbm, ⟨46, _⟩ => ⟨S4096x4x49, .f32⟩
  | .hbm, ⟨47, _⟩ => ⟨S4096x4x49x1, .f32⟩
  | .hbm, ⟨48, _⟩ => ⟨S4096x4x49x49, .f32⟩
  | .hbm, ⟨49, _⟩ => ⟨S4096x4x49x49, .f32⟩
  | .hbm, ⟨50, _⟩ => ⟨S4096x4x49x49, .f32⟩
  | .hbm, ⟨51, _⟩ => ⟨S_, .f32⟩
  | .hbm, ⟨52, _⟩ => ⟨S4096x4x49, .f32⟩
  | .hbm, ⟨53, _⟩ => ⟨S4096x4x49x1, .f32⟩
  | .hbm, ⟨54, _⟩ => ⟨S4096x4x49x49, .f32⟩
  | .hbm, ⟨55, _⟩ => ⟨S4096x4x49x49, .f32⟩
  | .hbm, ⟨56, _⟩ => ⟨S4096x4x32x49, .f32⟩
  | .hbm, ⟨57, _⟩ => ⟨S4096x49x4x32, .f32⟩
  | .hbm, ⟨58, _⟩ => ⟨S4096x49x128, .f32⟩
  | .hbm, ⟨59, _⟩ => ⟨S4096x49x128, .f32⟩
  | .hbm, ⟨60, _⟩ => ⟨S1x1x128, .f32⟩
  | .hbm, ⟨61, _⟩ => ⟨S4096x49x128, .f32⟩
  | .hbm, ⟨62, _⟩ => ⟨S4096x49x128, .f32⟩
  | _, _ => ⟨S4096x49x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  shapeCasts_S4096x49x128_S4096x49x4x32 : S4096x49x128.ShapeCasts S4096x49x4x32
  transposes_S4096x49x4x32_S4096x4x49x32_0_2_1_3 : S4096x49x4x32.Transposes [0, 2, 1, 3] S4096x4x49x32
  bcast_S_S4096x4x49x49 : S_.BroadcastsInDim S4096x4x49x49 (![] : Fin 0 → Fin S4096x4x49x49.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x4_S49x49x4 : S2401x4.ShapeCasts S49x49x4
  transposes_S49x49x4_S4x49x49_2_0_1 : S49x49x4.Transposes [2, 0, 1] S4x49x49
  bcast_S4x49x49_S1x4x49x49_1_2_3 : S4x49x49.BroadcastsInDim S1x4x49x49 (![1, 2, 3] : Fin 3 → Fin S1x4x49x49.rank)
  bcast_S1x4x49x49_S4096x4x49x49_0_1_2_3 : S1x4x49x49.BroadcastsInDim S4096x4x49x49 (![0, 1, 2, 3] : Fin 4 → Fin S4096x4x49x49.rank)
  shapeCasts_S4096x4x49x49_S64x64x4x49x49 : S4096x4x49x49.ShapeCasts S64x64x4x49x49
  bcast_S64x49x49_S1x64x1x49x49_1_3_4 : S64x49x49.BroadcastsInDim S1x64x1x49x49 (![1, 3, 4] : Fin 3 → Fin S1x64x1x49x49.rank)
  bcast_S1x64x1x49x49_S64x64x4x49x49_0_1_2_3_4 : S1x64x1x49x49.BroadcastsInDim S64x64x4x49x49 (![0, 1, 2, 3, 4] : Fin 5 → Fin S64x64x4x49x49.rank)
  shapeCasts_S64x64x4x49x49_S4096x4x49x49 : S64x64x4x49x49.ShapeCasts S4096x4x49x49
  reducesTo_S4096x4x49x49_S4096x4x49_d3 : S4096x4x49x49.ReducesTo [3] S4096x4x49
  h_S_ : 0 < S_.numel
  bcast_S_S4096x4x49 : S_.BroadcastsInDim S4096x4x49 (![] : Fin 0 → Fin S4096x4x49.rank)
  bcast_S4096x4x49_S4096x4x49x1_0_1_2 : S4096x4x49.BroadcastsInDim S4096x4x49x1 (![0, 1, 2] : Fin 3 → Fin S4096x4x49x1.rank)
  bcast_S4096x4x49x1_S4096x4x49x49_0_1_2_3 : S4096x4x49x1.BroadcastsInDim S4096x4x49x49 (![0, 1, 2, 3] : Fin 4 → Fin S4096x4x49x49.rank)
  transposes_S4096x4x32x49_S4096x49x4x32_0_3_1_2 : S4096x4x32x49.Transposes [0, 3, 1, 2] S4096x49x4x32
  shapeCasts_S4096x49x4x32_S4096x49x128 : S4096x49x4x32.ShapeCasts S4096x49x128
  bcast_S128_S1x1x128_2 : S128.BroadcastsInDim S1x1x128 (![2] : Fin 1 → Fin S1x1x128.rank)
  bcast_S1x1x128_S4096x49x128_0_1_2 : S1x1x128.BroadcastsInDim S4096x49x128 (![0, 1, 2] : Fin 3 → Fin S4096x49x128.rank)
  dot_S4096x49x128_S128x128_S4096x49x128_2_1_01_0_n_n_wf : DotDims.WF S4096x49x128 S128x128 S4096x49x128 [2] [1] [0, 1] [0] [] []
  dot_S4096x4x49x32_S4096x4x49x32_S4096x4x49x49_3_3_2_2_01_01_wf : DotDims.WF S4096x4x49x32 S4096x4x49x32 S4096x4x49x49 [3] [3] [2] [2] [0, 1] [0, 1]
  gather_S169x4_S2401x1_S2401x4_1_0_n_n_0_1_14_wf : GatherDims.WF S169x4 S2401x1 S2401x4 [1] [0] [] [0] [] 1 ![1, 4]
  dot_S4096x4x49x32_S4096x4x49x49_S4096x4x32x49_2_3_3_2_01_01_wf : DotDims.WF S4096x4x49x32 S4096x4x49x49 S4096x4x32x49 [2] [3] [3] [2] [0, 1] [0, 1]

variable [Facts₀]

def dot_S4096x49x128_S128x128_S4096x49x128_2_1_01_0_n_n : DotDims S4096x49x128 S128x128 S4096x49x128 where
  lhsContracting := [2]
  rhsContracting := [1]
  lhsNonContracting := [0, 1]
  rhsNonContracting := [0]
  lhsBatch := []
  rhsBatch := []
  wf := dot_S4096x49x128_S128x128_S4096x49x128_2_1_01_0_n_n_wf
def dot_S4096x4x49x32_S4096x4x49x32_S4096x4x49x49_3_3_2_2_01_01 : DotDims S4096x4x49x32 S4096x4x49x32 S4096x4x49x49 where
  lhsContracting := [3]
  rhsContracting := [3]
  lhsNonContracting := [2]
  rhsNonContracting := [2]
  lhsBatch := [0, 1]
  rhsBatch := [0, 1]
  wf := dot_S4096x4x49x32_S4096x4x49x32_S4096x4x49x49_3_3_2_2_01_01_wf
def gather_S169x4_S2401x1_S2401x4_1_0_n_n_0_1_14 : GatherDims S169x4 S2401x1 S2401x4 where
  offsetDims := [1]
  collapsedSliceDims := [0]
  operandBatchingDims := []
  startIndicesBatchingDims := []
  startIndexMap := [0]
  indexVectorDim := 1
  sliceSizes := ![1, 4]
  wf := gather_S169x4_S2401x1_S2401x4_1_0_n_n_0_1_14_wf
def dot_S4096x4x49x32_S4096x4x49x49_S4096x4x32x49_2_3_3_2_01_01 : DotDims S4096x4x49x32 S4096x4x49x49 S4096x4x32x49 where
  lhsContracting := [2]
  rhsContracting := [3]
  lhsNonContracting := [3]
  rhsNonContracting := [2]
  lhsBatch := [0, 1]
  rhsBatch := [0, 1]
  wf := dot_S4096x4x49x32_S4096x4x49x49_S4096x4x32x49_2_3_3_2_01_01_wf

class Facts : Prop extends Facts₀ where

variable [Facts]
-- ==== Proof.LibAttnOps.lean ====
/-
  Reading the array operations of a batched attention at an entry, on the extended reals.

  * A batched product of rows against rows, [n, a, d] x [n, b, d] -> [n, a, b] (the einsum "tqd,tkd->tqk"), accumulated
    onto the zero array, is at (w, p, q) the sum over k of left (w, p, k) * right (w, q, k).
  * A batched product of rows against columns, [n, a, k] x [n, k, d] -> [n, a, d] ("tqk,tkd->tqd"), onto zero, is at
    (w, p, e) the sum over j of left (w, p, j) * right (w, j, e).
  * A maximum from -inf over the last axis of a three-axis array is at (w, p) the fold of max over the entries (w, p, j);
    the host's maximum over the last axis of a four-axis array is at (b, h, p) the fold of max from the initial value.
  * Merging the two leading axes [a, b, c] -> [a b, c], or splitting them back, moves no entry: row p b + q is (p, q).
  * A [1, b, c] array seen as [b, c], as [1, b, c] again and repeated to [a, b, c] reads at (w, i, j) its entry (0, i, j);
    a vector of c entries seen as [1, c] and repeated to [N, c] reads at (n, r) its entry r.
  * Four arrays [a, b, k] laid side by side along the last axis read at column n k + e the n-th array's column e.
  All extents are variables.
-/
import Idealize.ShloMosaic.Lib.ValueIdx
import Idealize.ShloMosaic.Lib.Pipeline.Value
import Idealize.ShloMosaic.PureOps.Ideal.Laws

noncomputable section

open scoped BigOperators

namespace Cert.AttnOps

open Idealize.ShloMosaic Idealize.ShloMosaic.ValueIdx

/-! ## The two batched products -/

/-- The dimension numbers of [n, a, d] x [n, b, d] -> [n, a, b]: batch axis 0, both last axes contracted. -/
abbrev dimsQK {n a b d : ℕ}
    (wf : DotDims.WF ⟨3, ![n, a, d]⟩ ⟨3, ![n, b, d]⟩ ⟨3, ![n, a, b]⟩ [2] [2] [1] [1] [0] [0]) :
    DotDims ⟨3, ![n, a, d]⟩ ⟨3, ![n, b, d]⟩ ⟨3, ![n, a, b]⟩ :=
  ⟨[2], [2], [1], [1], [0], [0], wf⟩

/-- Rows against rows, batched, onto zero: at (w, p, q) the dot product of row (w, p) of the left factor with row
    (w, q) of the right one. -/
theorem rows_rows_apply {n a b d : ℕ} {φ₁ φ₂ : FTy}
    (wf : DotDims.WF ⟨3, ![n, a, d]⟩ ⟨3, ![n, b, d]⟩ ⟨3, ![n, a, b]⟩ [2] [2] [1] [1] [0] [0])
    (prec : Option ContractPrecision) (L : FVec Ideal ⟨3, ![n, a, d]⟩ φ₁) (R : FVec Ideal ⟨3, ![n, b, d]⟩ φ₂)
    (w : Fin n) (p : Fin a) (q : Fin b) :
    FloatOps.matmul (dimsQK wf) prec L R (constant ⟨3, ![n, a, b]⟩ .f32 0x00000000#32) (ix3 w p q)
      = ∑ k : Fin d, L (ix3 w p k) * R (ix3 w q k) := by
  rw [Ideal.matmul_constant_zero_apply, ← Equiv.sum_comp (contrEquiv1 (dimsQK wf) d rfl rfl).symm]
  refine Finset.sum_congr rfl fun k _ => ?_
  have hk := contrEquiv1_symm_val (dimsQK wf) d rfl rfl k
  have el : (dimsQK wf).lhsIdx (ix3 w p q) ((contrEquiv1 (dimsQK wf) d rfl rfl).symm k) = ix3 w p k :=
    funext fun ax => Fin.ext (by
      match ax with
      | ⟨0, _⟩ => rfl
      | ⟨1, _⟩ => rfl
      | ⟨2, _⟩ => exact ((dimsQK wf).lhsIdx_val_of_single rfl _ _).trans hk)
  have er : (dimsQK wf).rhsIdx (ix3 w p q) ((contrEquiv1 (dimsQK wf) d rfl rfl).symm k) = ix3 w q k :=
    funext fun ax => Fin.ext (by
      match ax with
      | ⟨0, _⟩ => rfl
      | ⟨1, _⟩ => rfl
      | ⟨2, _⟩ => exact ((dimsQK wf).rhsIdx_val_of_single rfl _ _).trans hk)
  rw [el, er]

/-- The dimension numbers of [n, a, k] x [n, k, d] -> [n, a, d]: batch axis 0, the left's last axis against the right's
    middle one. -/
abbrev dimsAV {n a k d : ℕ}
    (wf : DotDims.WF ⟨3, ![n, a, k]⟩ ⟨3, ![n, k, d]⟩ ⟨3, ![n, a, d]⟩ [2] [1] [1] [2] [0] [0]) :
    DotDims ⟨3, ![n, a, k]⟩ ⟨3, ![n, k, d]⟩ ⟨3, ![n, a, d]⟩ :=
  ⟨[2], [1], [1], [2], [0], [0], wf⟩

/-- Rows against columns, batched, onto zero: at (w, p, e) the sum over j of left (w, p, j) * right (w, j, e). -/
theorem rows_cols_apply {n a k d : ℕ} {φ₁ φ₂ : FTy}
    (wf : DotDims.WF ⟨3, ![n, a, k]⟩ ⟨3, ![n, k, d]⟩ ⟨3, ![n, a, d]⟩ [2] [1] [1] [2] [0] [0])
    (prec : Option ContractPrecision) (L : FVec Ideal ⟨3, ![n, a, k]⟩ φ₁) (R : FVec Ideal ⟨3, ![n, k, d]⟩ φ₂)
    (w : Fin n) (p : Fin a) (e : Fin d) :
    FloatOps.matmul (dimsAV wf) prec L R (constant ⟨3, ![n, a, d]⟩ .f32 0x00000000#32) (ix3 w p e)
      = ∑ j : Fin k, L (ix3 w p j) * R (ix3 w j e) := by
  rw [Ideal.matmul_constant_zero_apply, ← Equiv.sum_comp (contrEquiv1 (dimsAV wf) k rfl rfl).symm]
  refine Finset.sum_congr rfl fun j _ => ?_
  have hj := contrEquiv1_symm_val (dimsAV wf) k rfl rfl j
  have el : (dimsAV wf).lhsIdx (ix3 w p e) ((contrEquiv1 (dimsAV wf) k rfl rfl).symm j) = ix3 w p j :=
    funext fun ax => Fin.ext (by
      match ax with
      | ⟨0, _⟩ => rfl
      | ⟨1, _⟩ => rfl
      | ⟨2, _⟩ => exact ((dimsAV wf).lhsIdx_val_of_single rfl _ _).trans hj)
  have er : (dimsAV wf).rhsIdx (ix3 w p e) ((contrEquiv1 (dimsAV wf) k rfl rfl).symm j) = ix3 w j e :=
    funext fun ax => Fin.ext (by
      match ax with
      | ⟨0, _⟩ => rfl
      | ⟨1, _⟩ => exact ((dimsAV wf).rhsIdx_val_of_single rfl _ _).trans hj
      | ⟨2, _⟩ => rfl)
  rw [el, er]

/-! ## Maxima over the last axis -/

/-- The maximum over the last axis of a three-axis array, from -inf: at (w, p) the fold of max over the entries
    (w, p, j). -/
theorem max_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = 0xFF800000#32) (w : Fin n0) (p : Fin n1) :
    multiReduction .maximumf [2] ⟨2, ![n0, n1]⟩ src 0xFF800000#32 h hφ hacc (ix2 w p)
      = (Finset.univ : Finset (Fin n2)).fold max (Ideal.ofBits .f32 0xFF800000#32) (fun j => src (ix3 w p j)) :=
  (Ideal.multiReduction_maximumf_single src 0xFF800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-- The reduced index (b, h, p) with coordinate j put back on the last axis is (b, h, p, j). -/
theorem lift_last4 {n0 n1 n2 n3 : ℕ} (h : (⟨4, ![n0, n1, n2, n3]⟩ : Shape).Reduces [3] ⟨3, ![n0, n1, n2]⟩)
    (b : Fin n0) (hh : Fin n1) (p : Fin n2) (j : Fin ((⟨4, ![n0, n1, n2, n3]⟩ : Shape).size 3)) :
    h.lift (ix3 b hh p) j = ix4 b hh p (⟨j.val, j.isLt⟩ : Fin n3) := by
  funext ax; apply Fin.ext
  fin_cases ax <;> rfl

/-- The host's reduction with a maximum body over the last axis of a four-axis array: at (b, h, p) the fold of max from
    the initial value over the entries (b, h, p, j). -/
theorem host_max_last4_apply {n0 n1 n2 n3 : ℕ} (x : FVec Ideal ⟨4, ![n0, n1, n2, n3]⟩ .f32)
    (init : FVec Ideal ⟨0, ![]⟩ .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩)
    (hu : 0 < (⟨0, ![]⟩ : Shape).numel) (b : Fin n0) (hh : Fin n1) (p : Fin n2) :
    Host.reduce FloatOps.maximumf x init h' hu (ix3 b hh p)
      = (Finset.univ : Finset (Fin n3)).fold max (init ix0) (fun j => x (ix4 b hh p j)) := by
  rw [Host.reduce_eq_fold_single FloatOps.maximumf x init h' h hu, eq_ix0 (Shape.Idx.first hu)]
  have hf : (x ∘ h.lift (ix3 b hh p)) = fun j : Fin n3 => x (ix4 b hh p j) :=
    funext fun j => congrArg x (lift_last4 h b hh p j)
  exact congrArg (fun f => Finset.fold max (init ix0) f (Finset.univ : Finset (Fin n3))) hf

/-! ## Re-laid arrays -/

variable {α : Type}

/-- [a, b, c] with its two leading axes merged into N = a b rows: row p b + q, column r, is the entry (p, q, r). -/
theorem merge_rows_apply {a b c N : ℕ} (v : (⟨3, ![a, b, c]⟩ : Shape).Idx → α)
    (h : (⟨3, ![a, b, c]⟩ : Shape).ShapeCasts ⟨2, ![N, c]⟩) (p : Fin a) (q : Fin b) (r : Fin c) (n : Fin N)
    (hn : n.val = p.val * b + q.val) :
    shapeCast ⟨2, ![N, c]⟩ v h (ix2 n r) = v (ix3 p q r) := by
  refine shapeCast_apply v h (ix2 n r) (ix3 p q r) ?_
  rw [Shape.rowMajor_val_two, Shape.rowMajor_val_three]
  show (p.val * b + q.val) * c + r.val = n.val * c + r.val
  rw [hn]

/-- [N, c] with its N = a b rows split into [a, b]: the entry (p, q, r) is row p b + q, column r. -/
theorem split_rows_apply {a b c N : ℕ} (v : (⟨2, ![N, c]⟩ : Shape).Idx → α)
    (h : (⟨2, ![N, c]⟩ : Shape).ShapeCasts ⟨3, ![a, b, c]⟩) (p : Fin a) (q : Fin b) (r : Fin c) (n : Fin N)
    (hn : n.val = p.val * b + q.val) :
    shapeCast ⟨3, ![a, b, c]⟩ v h (ix3 p q r) = v (ix2 n r) := by
  refine shapeCast_apply v h (ix3 p q r) (ix2 n r) ?_
  rw [Shape.rowMajor_val_two, Shape.rowMajor_val_three]
  show n.val * c + r.val = (p.val * b + q.val) * c + r.val
  rw [hn]

/-- A [1, b, c] array seen as [b, c], as [1, b, c] again, and repeated to [a, b, c]: at (w, i, j) its entry
    (0, i, j). -/
theorem slab_repeated_apply {a b c : ℕ} (v : (⟨3, ![1, b, c]⟩ : Shape).Idx → α)
    (h1 : (⟨3, ![1, b, c]⟩ : Shape).ShapeCasts ⟨2, ![b, c]⟩)
    (h2 : (⟨2, ![b, c]⟩ : Shape).ShapeCasts ⟨3, ![1, b, c]⟩)
    (h3 : (⟨3, ![1, b, c]⟩ : Shape).Broadcasts ⟨3, ![a, b, c]⟩) (w : Fin a) (i : Fin b) (j : Fin c) :
    broadcastTo ⟨3, ![a, b, c]⟩ (shapeCast ⟨3, ![1, b, c]⟩ (shapeCast ⟨2, ![b, c]⟩ v h1) h2) h3 (ix3 w i j)
      = v (ix3 (0 : Fin 1) i j) := by
  rw [shapeCast_shapeCast]
  refine broadcastTo_apply v h3 (ix3 w i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A vector of c entries seen as [1, c] and repeated to [N, c]: at (n, r) its entry r. -/
theorem row_repeated_apply {N c : ℕ} (v : (⟨1, ![c]⟩ : Shape).Idx → α)
    (h1 : (⟨1, ![c]⟩ : Shape).ShapeCasts ⟨2, ![1, c]⟩)
    (h2 : (⟨2, ![1, c]⟩ : Shape).Broadcasts ⟨2, ![N, c]⟩) (n : Fin N) (r : Fin c) :
    broadcastTo ⟨2, ![N, c]⟩ (shapeCast ⟨2, ![1, c]⟩ v h1) h2 (ix2 n r) = v (ix1 r) := by
  refine (broadcastTo_apply _ h2 (ix2 n r) (ix2 (0 : Fin 1) r) fun ax => ?_).trans ?_
  · match ax with
    | ⟨0, _⟩ => rfl
    | ⟨1, _⟩ =>
      show r.val = if c = 1 then 0 else r.val
      split
      · have := r.isLt; omega
      · rfl
  · refine shapeCast_apply v h1 (ix2 (0 : Fin 1) r) (ix1 r) ?_
    rw [Shape.rowMajor_val_one, Shape.rowMajor_val_two]
    show r.val = 0 * c + r.val
    omega

/-- Four [a, b, k] arrays side by side along the last axis: column n k + e of the result is column e of the n-th. -/
theorem join4_apply {a b k K : ℕ} (x0 x1 x2 x3 : (⟨3, ![a, b, k]⟩ : Shape).Idx → α)
    (h : Shape.Concatenates (([⟨⟨3, ![a, b, k]⟩, x0⟩, ⟨⟨3, ![a, b, k]⟩, x1⟩, ⟨⟨3, ![a, b, k]⟩, x2⟩, ⟨⟨3, ![a, b, k]⟩, x3⟩] :
      List ((s : Shape) × (s.Idx → α))).map (·.1)) ⟨3, ![a, b, K]⟩ 2)
    (p : Fin a) (q : Fin b) (e : Fin k) (c : Fin K) :
    (c.val = e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x0 (ix3 p q e))
    ∧ (c.val = k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x1 (ix3 p q e))
    ∧ (c.val = k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x2 (ix3 p q e))
    ∧ (c.val = k + k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x3 (ix3 p q e)) := by
  have off : ∀ bx : Fin (⟨3, ![a, b, k]⟩ : Shape).rank, bx.cast (rfl : (⟨3, ![a, b, k]⟩ : Shape).rank = (⟨3, ![a, b, K]⟩ : Shape).rank) ≠ (2 : Fin 3) →
      ((ix3 p q e : (⟨3, ![a, b, k]⟩ : Shape).Idx) bx).val = ((ix3 p q c : (⟨3, ![a, b, K]⟩ : Shape).Idx) (bx.cast rfl)).val := by
    intro bx hb
    match bx with
    | ⟨0, _⟩ => rfl
    | ⟨1, _⟩ => rfl
    | ⟨2, _⟩ => exact absurd rfl hb
  refine ⟨fun hc => ?_, fun hc => ?_, fun hc => ?_, fun hc => ?_⟩
  · exact concatenate_apply_piece 2 _ h (ix3 p q c) 0 (by simp) _ x0 rfl rfl 0 rfl (ix3 p q e) off
      (by show 0 + e.val = c.val; omega)
  · exact concatenate_apply_piece 2 _ h (ix3 p q c) 1 (by simp) _ x1 rfl rfl k (by simp) (ix3 p q e) off
      (by show k + e.val = c.val; omega)
  · exact concatenate_apply_piece 2 _ h (ix3 p q c) 2 (by simp) _ x2 rfl rfl (k + k) (by simp) (ix3 p q e) off
      (by show k + k + e.val = c.val; omega)
  · exact concatenate_apply_piece 2 _ h (ix3 p q c) 3 (by simp) _ x3 rfl rfl (k + k + k) (by simp [Nat.add_assoc]) (ix3 p q e) off
      (by show k + k + k + e.val = c.val; omega)

end Cert.AttnOps

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibBatchOps.lean ====
/-
  Rank-3 arrays [n0, n1, n2] of extended reals read at an index (b, q, l): reductions over ONE of the two inner
  axes, and a reduced array kept as a unit axis and broadcast back.

  * A maximum taken from −∞ over the middle axis is, at (b, l), the fold of `max` from −∞ over the entries (b, q, l).
  * A sum over the middle axis is, at (b, l), the sum over `q` of the entries (b, q, l); a sum over the last axis is,
    at (b, q), the sum over `l`.
  * An array [n0, n2] viewed as [n0, 1, n2] and broadcast to [n0, n1, n2] reads, at (b, q, l), the entry (b, l);
    an array [n0, n1] viewed as [n0, n1, 1] and broadcast to [n0, n1, n2] reads, at (b, q, l), the entry (b, q).
-/
import Idealize.ShloMosaic.Lib.ValueIdx
import Idealize.ShloMosaic.Lib.Pipeline.Value
import Idealize.ShloMosaic.PureOps.Ideal.Laws

noncomputable section

namespace Cert.BatchOps

open Idealize.ShloMosaic Idealize.ShloMosaic.ValueIdx

/-- The maximum over the middle axis, from −∞: at (b, l) the fold of `max` over the entries (b, q, l). -/
theorem max_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0xFF800000#32 : BitVec 32) = 0xFF800000#32) (b : Fin n0) (l : Fin n2) :
    multiReduction .maximumf [1] ⟨2, ![n0, n2]⟩ src 0xFF800000#32 h hφ hacc (ix2 b l)
      = (Finset.univ : Finset (Fin n1)).fold max (Ideal.ofBits .f32 0xFF800000#32) (fun q => src (ix3 b q l)) :=
  (Ideal.multiReduction_maximumf_single src 0xFF800000#32 h hφ hacc (ix2 b l)).trans
    (Finset.fold_congr fun q _ => congrArg src (funext fun ax => Fin.ext (by
      match ax with
      | ⟨0, _⟩ => rfl
      | ⟨1, _⟩ => rfl
      | ⟨2, _⟩ => rfl)))

/-- The sum over the middle axis: at (b, l) the sum over `q` of the entries (b, q, l). -/
theorem sum_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (b : Fin n0) (l : Fin n2) :
    multiReduction .add [1] ⟨2, ![n0, n2]⟩ src 0x00000000#32 h hφ hacc (ix2 b l)
      = ∑ q : Fin n1, src (ix3 b q l) :=
  (Ideal.multiReduction_add_single src 0x00000000#32 h hφ hacc (ix2 b l)).trans
    (Finset.sum_congr rfl fun q _ => congrArg src (funext fun ax => Fin.ext (by
      match ax with
      | ⟨0, _⟩ => rfl
      | ⟨1, _⟩ => rfl
      | ⟨2, _⟩ => rfl)))

/-- The sum over the last axis: at (b, q) the sum over `l` of the entries (b, q, l). -/
theorem sum_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (b : Fin n0) (q : Fin n1) :
    multiReduction .add [2] ⟨2, ![n0, n1]⟩ src 0x00000000#32 h hφ hacc (ix2 b q)
      = ∑ l : Fin n2, src (ix3 b q l) :=
  (Ideal.multiReduction_add_single src 0x00000000#32 h hφ hacc (ix2 b q)).trans
    (Finset.sum_congr rfl fun l _ => congrArg src (funext fun ax => Fin.ext (by
      match ax with
      | ⟨0, _⟩ => rfl
      | ⟨1, _⟩ => rfl
      | ⟨2, _⟩ => rfl)))

variable {α : Type}

/-- [n0, n2] kept as [n0, 1, n2] and broadcast along the middle axis: at (b, q, l) the entry (b, l). -/
theorem keep_axis1_apply {n0 n1 n2 : ℕ} (v : (⟨2, ![n0, n2]⟩ : Shape).Idx → α)
    (h1 : (⟨2, ![n0, n2]⟩ : Shape).ShapeCasts ⟨3, ![n0, 1, n2]⟩)
    (h2 : (⟨3, ![n0, 1, n2]⟩ : Shape).Broadcasts ⟨3, ![n0, n1, n2]⟩) (b : Fin n0) (q : Fin n1) (l : Fin n2) :
    broadcastTo ⟨3, ![n0, n1, n2]⟩ (shapeCast ⟨3, ![n0, 1, n2]⟩ v h1) h2 (ix3 b q l) = v (ix2 b l) := by
  refine (broadcastTo_apply _ h2 (ix3 b q l) (ix3 b (0 : Fin 1) l) fun ax => ?_).trans ?_
  · match ax with
    | ⟨0, _⟩ =>
      show b.val = if n0 = 1 then 0 else b.val
      split
      · have := b.isLt; omega
      · rfl
    | ⟨1, _⟩ => rfl
    | ⟨2, _⟩ =>
      show l.val = if n2 = 1 then 0 else l.val
      split
      · have := l.isLt; omega
      · rfl
  · refine shapeCast_apply v h1 (ix3 b (0 : Fin 1) l) (ix2 b l) ?_
    rw [Shape.rowMajor_val_two, Shape.rowMajor_val_three]
    show b.val * n2 + l.val = (b.val * 1 + 0) * n2 + l.val
    rw [Nat.mul_one, Nat.add_zero]

/-- [n0, n1] kept as [n0, n1, 1] and broadcast along the last axis: at (b, q, l) the entry (b, q). -/
theorem keep_axis2_apply {n0 n1 n2 : ℕ} (v : (⟨2, ![n0, n1]⟩ : Shape).Idx → α)
    (h1 : (⟨2, ![n0, n1]⟩ : Shape).ShapeCasts ⟨3, ![n0, n1, 1]⟩)
    (h2 : (⟨3, ![n0, n1, 1]⟩ : Shape).Broadcasts ⟨3, ![n0, n1, n2]⟩) (b : Fin n0) (q : Fin n1) (l : Fin n2) :
    broadcastTo ⟨3, ![n0, n1, n2]⟩ (shapeCast ⟨3, ![n0, n1, 1]⟩ v h1) h2 (ix3 b q l) = v (ix2 b q) := by
  refine (broadcastTo_apply _ h2 (ix3 b q l) (ix3 b q (0 : Fin 1)) fun ax => ?_).trans ?_
  · match ax with
    | ⟨0, _⟩ =>
      show b.val = if n0 = 1 then 0 else b.val
      split
      · have := b.isLt; omega
      · rfl
    | ⟨1, _⟩ =>
      show q.val = if n1 = 1 then 0 else q.val
      split
      · have := q.isLt; omega
      · rfl
    | ⟨2, _⟩ => rfl
  · refine shapeCast_apply v h1 (ix3 b q (0 : Fin 1)) (ix2 b q) ?_
    rw [Shape.rowMajor_val_two, Shape.rowMajor_val_three]
    show b.val * n1 + q.val = (b.val * n1 + q.val) * 1 + 0
    omega

end Cert.BatchOps

end
-- ==== Proof.AttnSpec.lean ====
/-
  Windowed multi-head attention, one window at a time, on the extended reals.

  A window is 49 rows of 128 features.  A head h owns 32 rows of each projection matrix; its queries, keys and values
  are the window's rows against those 32 rows.  The score of query row i against key row j is their dot product times
  the scale, plus the head's position bias at (i, j), plus the window's mask at (i, j).  The weights are the softmax of
  the scores along j — the exponential of the score minus the row's maximum, over the row's sum of these — and the
  head's output row i is the weighted sum of the value rows.  The four heads' outputs side by side, 4 x 32 = 128
  columns, go through the output projection and its bias.

  Window b of the batch of 4096 uses mask number b mod 64.
-/
import Idealize.ShloMosaic.Lib.ValueIdx
import Idealize.ShloMosaic.PureOps.Ideal.Laws

noncomputable section

open scoped BigOperators

namespace Cert.AttnSpec

open Idealize.ShloMosaic Idealize.ShloMosaic.ValueIdx

/-- The scale 32^(-1/2) as both programs carry it: one binary32 pattern. -/
abbrev scale : EReal := Ideal.ofBits .f32 0x3E3504F3#32

/-- The pattern of -inf, from which both programs start a row's maximum. -/
abbrev negInf : EReal := Ideal.ofBits .f32 0xFF800000#32

section Head

variable (xw : Fin 49 → Fin 128 → EReal) (mw : Fin 49 → Fin 49 → EReal)
  (wq wk wv : Fin 32 → Fin 128 → EReal) (bh : Fin 49 → Fin 49 → EReal)

/-- Row s of the window against row d of a head's 32 projection rows. -/
def lin (xw : Fin 49 → Fin 128 → EReal) (w : Fin 32 → Fin 128 → EReal) (s : Fin 49) (d : Fin 32) : EReal :=
  ∑ c : Fin 128, xw s c * w d c

/-- The score of query row i against key row j. -/
def score (i j : Fin 49) : EReal :=
  (∑ d : Fin 32, lin xw wq i d * lin xw wk j d) * scale + bh i j + mw i j

/-- The row maximum the softmax subtracts. -/
def rowMax (i : Fin 49) : EReal :=
  max negInf ((Finset.univ : Finset (Fin 49)).fold max negInf (fun j => score xw mw wq wk bh i j))

/-- The exponential weights, not yet normalized. -/
def ex (i j : Fin 49) : EReal :=
  Ideal.exp (score xw mw wq wk bh i j - rowMax xw mw wq wk bh i)

/-- A row's sum of exponential weights. -/
def den (i : Fin 49) : EReal := ∑ j : Fin 49, ex xw mw wq wk bh i j

/-- The softmax weights. -/
def attn (i j : Fin 49) : EReal := Ideal.div (ex xw mw wq wk bh i j) (den xw mw wq wk bh i)

/-- Output row i, column d, of one head: the weights against the value rows. -/
def headCtx (i : Fin 49) (d : Fin 32) : EReal :=
  ∑ j : Fin 49, attn xw mw wq wk bh i j * lin xw wv j d

end Head

/-- Row d of head h among the 128 rows of a projection matrix. -/
def hd (h : Fin 4) (d : Fin 32) : Fin 128 := ⟨32 * h.val + d.val, by have := h.isLt; have := d.isLt; omega⟩

/-- The 32 rows of head h. -/
def wslice (W : Fin 128 → Fin 128 → EReal) (h : Fin 4) : Fin 32 → Fin 128 → EReal := fun d c => W (hd h d) c

/-- The head of column c' of the joined heads, and the column inside it. -/
def headOf (c' : Fin 128) : Fin 4 := ⟨c'.val / 32, by have := c'.isLt; omega⟩
def colOf (c' : Fin 128) : Fin 32 := ⟨c'.val % 32, Nat.mod_lt _ (by decide)⟩

section Window

variable (xw : Fin 49 → Fin 128 → EReal) (mw : Fin 49 → Fin 49 → EReal)
  (WQ WK WV PW : Fin 128 → Fin 128 → EReal) (PB : Fin 128 → EReal) (B : Fin 4 → Fin 49 → Fin 49 → EReal)

/-- The four heads' outputs side by side. -/
def ctxFlat (s : Fin 49) (c' : Fin 128) : EReal :=
  headCtx xw mw (wslice WQ (headOf c')) (wslice WK (headOf c')) (wslice WV (headOf c')) (B (headOf c')) s (colOf c')

/-- The window's output: the joined heads through the output projection, plus its bias. -/
def winOut (s : Fin 49) (c : Fin 128) : EReal :=
  (∑ c' : Fin 128, ctxFlat xw mw WQ WK WV B s c' * PW c c') + PB c

end Window

/-- The mask number of window b. -/
def maskOf (b : Fin 4096) : Fin 64 := ⟨b.val % 64, Nat.mod_lt _ (by decide)⟩

/-- The whole result as one function of the arrays, index by index. -/
def G (X : (⟨3, ![4096, 49, 128]⟩ : Shape).Idx → EReal) (M : (⟨3, ![64, 49, 49]⟩ : Shape).Idx → EReal)
    (WQ WK WV PW : (⟨2, ![128, 128]⟩ : Shape).Idx → EReal) (PB : (⟨1, ![128]⟩ : Shape).Idx → EReal)
    (B : (⟨3, ![4, 49, 49]⟩ : Shape).Idx → EReal) : (⟨3, ![4096, 49, 128]⟩ : Shape).Idx → EReal := fun i =>
  winOut (fun s c => X (ix3 (i 0) s c)) (fun p q => M (ix3 (maskOf (i 0)) p q))
    (fun j c => WQ (ix2 j c)) (fun j c => WK (ix2 j c)) (fun j c => WV (ix2 j c)) (fun j c => PW (ix2 j c))
    (fun c => PB (ix1 c)) (fun h p q => B (ix3 h p q)) (i 1) (i 2)

end Cert.AttnSpec

end
-- ==== Proof.KernelHead.lean ====
/-
  The kernel's body, head by head, read at an entry.

  The body works on one image: 64 windows of 49 rows, merged into 3136 rows of 128 features.  For each head it multiplies
  the merged rows against 32 rows of each projection matrix, splits the 3136 rows back into 64 x 49, takes the batched
  scores, adds the head's position bias (one [49, 49] slab for all 64 windows) and the windows' masks, takes the softmax
  along the key axis and multiplies by the values.  The four heads' outputs are laid side by side, merged into 3136 rows
  again, multiplied against the output projection, and the bias row is added.

  Each stage is named here as a function of vectors, read at an entry, and the whole body's result at window w, row s,
  column c is shown to be the window's attention output (AttnSpec.winOut) of the window's rows and mask.
-/
import proofs.«153229_j16698832847103_1_alg».proof.Proof.Gen.KernelIdeal.Skeleton
import proofs.«153229_j16698832847103_1_alg».proof.Proof.LibAttnOps
import proofs.«153229_j16698832847103_1_alg».proof.Proof.LibMatmulRows
import proofs.«153229_j16698832847103_1_alg».proof.Proof.LibBatchOps
import proofs.«153229_j16698832847103_1_alg».proof.Proof.AttnSpec

noncomputable section

open scoped BigOperators

namespace Cert.KernelIdeal.Head

open Cert.KernelIdeal Cert.KernelIdeal.Gen Idealize.ShloMosaic Idealize.ShloMosaic.ValueIdx Cert.AttnSpec

/-- Row s of window w among the image's 3136 merged rows. -/
def rowOf (w : Fin 64) (s : Fin 49) : Fin 3136 := ⟨w.val * 49 + s.val, by have := w.isLt; have := s.isLt; omega⟩

/-- Window w's 49 rows of a merged [3136, 128] array. -/
def rowsOf (x1 : FVec Ideal S3136x128 .f32) (w : Fin 64) : Fin 49 → Fin 128 → EReal := fun s c => x1 (ix2 (rowOf w s) c)

/-- A [32, 128] vector as a function of row and column. -/
def mat32 (wt : FVec Ideal S32x128 .f32) : Fin 32 → Fin 128 → EReal := fun d c => wt (ix2 d c)

/-- A [1, 49, 49] slab as a function of its two inner coordinates. -/
def slab (bs : FVec Ideal S1x49x49 .f32) : Fin 49 → Fin 49 → EReal := fun p q => bs (ix3 (0 : Fin 1) p q)

/-- Window w's mask. -/
def maskAt (msk : FVec Ideal S64x49x49 .f32) (w : Fin 64) : Fin 49 → Fin 49 → EReal := fun p q => msk (ix3 w p q)

/-! ## One projection -/

/-- The merged rows against 32 projection rows, split back into windows. -/
def projVec (x1 : FVec Ideal S3136x128 .f32) (wt : FVec Ideal S32x128 .f32) : FVec Ideal S64x49x32 .f32 :=
  shapeCast S64x49x32 (matmul dot_S3136x128_S32x128_S3136x32_1_1_0_0_n_n none x1 wt (constant S3136x32 .f32 0x00000000#32))
    shapeCasts_S3136x32_S64x49x32

theorem projVec_apply (x1 : FVec Ideal S3136x128 .f32) (wt : FVec Ideal S32x128 .f32) (w : Fin 64) (s : Fin 49) (d : Fin 32) :
    projVec x1 wt (ix3 w s d) = lin (rowsOf x1 w) (mat32 wt) s d := by
  unfold projVec
  refine (Cert.AttnOps.split_rows_apply _ shapeCasts_S3136x32_S64x49x32 w s d (rowOf w s) rfl).trans ?_
  exact Cert.MatmulRows.zero_acc_apply _ none x1 wt (rowOf w s) d

/-! ## The scores -/

def scoreVec (qh kh : FVec Ideal S64x49x32 .f32) (bs : FVec Ideal S1x49x49 .f32) (msk : FVec Ideal S64x49x49 .f32) :
    FVec Ideal S64x49x49 .f32 :=
  addf (addf (mulf (matmul dot_S64x49x32_S64x49x32_S64x49x49_2_2_1_1_0_0 none qh kh (constant S64x49x49 .f32 0x00000000#32))
      (broadcast S64x49x49 (Scalar.ofBits .f32 0x3E3504F3#32)))
    (broadcastTo S64x49x49 (shapeCast S1x49x49 (shapeCast S49x49 bs shapeCasts_S1x49x49_S49x49) shapeCasts_S49x49_S1x49x49)
      broadcasts_S1x49x49_S64x49x49)) msk

theorem scoreVec_apply (qh kh : FVec Ideal S64x49x32 .f32) (bs : FVec Ideal S1x49x49 .f32) (msk : FVec Ideal S64x49x49 .f32)
    (w : Fin 64) (i j : Fin 49) :
    scoreVec qh kh bs msk (ix3 w i j)
      = (∑ d : Fin 32, qh (ix3 w i d) * kh (ix3 w j d)) * scale + slab bs i j + maskAt msk w i j := by
  unfold scoreVec
  show FloatOps.matmul _ none qh kh (constant S64x49x49 .f32 0x00000000#32) (ix3 w i j) * scale
      + broadcastTo S64x49x49 (shapeCast S1x49x49 (shapeCast S49x49 bs shapeCasts_S1x49x49_S49x49) shapeCasts_S49x49_S1x49x49)
          broadcasts_S1x49x49_S64x49x49 (ix3 w i j)
      + msk (ix3 w i j) = _
  rw [Cert.AttnOps.slab_repeated_apply]
  refine congrArg (fun t => t * scale + slab bs i j + maskAt msk w i j) ?_
  exact Cert.AttnOps.rows_rows_apply _ none qh kh w i j

/-! ## The softmax along the key axis -/

def rowMaxVec (sc : FVec Ideal S64x49x49 .f32) : FVec Ideal S64x49 .f32 :=
  maximumf (broadcast S64x49 (Scalar.ofBits .f32 0xFF800000#32))
    (multiReduction .maximumf [2] S64x49 sc 0xFF800000#32 reduces_S64x49x49_S64x49 (.inl rfl) rfl)

def expVec (sc : FVec Ideal S64x49x49 .f32) : FVec Ideal S64x49x49 .f32 :=
  exp (subf sc (broadcastTo S64x49x49 (shapeCast S64x49x1 (rowMaxVec sc) shapeCasts_S64x49_S64x49x1) broadcasts_S64x49x1_S64x49x49))

def denVec (sc : FVec Ideal S64x49x49 .f32) : FVec Ideal S64x49 .f32 :=
  multiReduction .add [2] S64x49 (expVec sc) 0x00000000#32 reduces_S64x49x49_S64x49 (.inl rfl) rfl

def softmaxVec (sc : FVec Ideal S64x49x49 .f32) : FVec Ideal S64x49x49 .f32 :=
  divf (expVec sc) (broadcastTo S64x49x49 (shapeCast S64x49x1 (denVec sc) shapeCasts_S64x49_S64x49x1) broadcasts_S64x49x1_S64x49x49)

theorem rowMaxVec_apply (sc : FVec Ideal S64x49x49 .f32) (w : Fin 64) (i : Fin 49) :
    rowMaxVec sc (ix2 w i) = max negInf ((Finset.univ : Finset (Fin 49)).fold max negInf (fun j => sc (ix3 w i j))) := by
  unfold rowMaxVec
  show max negInf (multiReduction .maximumf [2] S64x49 sc 0xFF800000#32 reduces_S64x49x49_S64x49 (.inl rfl) rfl (ix2 w i)) = _
  rw [Cert.AttnOps.max_last3_apply]

theorem expVec_apply (sc : FVec Ideal S64x49x49 .f32) (w : Fin 64) (i j : Fin 49) :
    expVec sc (ix3 w i j) = Ideal.exp (sc (ix3 w i j) - rowMaxVec sc (ix2 w i)) := by
  unfold expVec
  show Ideal.exp (sc (ix3 w i j) - broadcastTo S64x49x49 (shapeCast S64x49x1 (rowMaxVec sc) shapeCasts_S64x49_S64x49x1)
    broadcasts_S64x49x1_S64x49x49 (ix3 w i j)) = _
  rw [Cert.BatchOps.keep_axis2_apply]

theorem denVec_apply (sc : FVec Ideal S64x49x49 .f32) (w : Fin 64) (i : Fin 49) :
    denVec sc (ix2 w i) = ∑ j : Fin 49, expVec sc (ix3 w i j) := by
  unfold denVec
  exact Cert.BatchOps.sum_axis2_apply (expVec sc) reduces_S64x49x49_S64x49 (.inl rfl) rfl w i

theorem softmaxVec_apply (sc : FVec Ideal S64x49x49 .f32) (w : Fin 64) (i j : Fin 49) :
    softmaxVec sc (ix3 w i j) = Ideal.div (expVec sc (ix3 w i j)) (denVec sc (ix2 w i)) := by
  unfold softmaxVec
  show Ideal.div (expVec sc (ix3 w i j)) (broadcastTo S64x49x49 (shapeCast S64x49x1 (denVec sc) shapeCasts_S64x49_S64x49x1)
    broadcasts_S64x49x1_S64x49x49 (ix3 w i j)) = _
  rw [Cert.BatchOps.keep_axis2_apply]

/-! ## One head -/

def headVec (x1 : FVec Ideal S3136x128 .f32) (msk : FVec Ideal S64x49x49 .f32) (wq wk wv : FVec Ideal S32x128 .f32)
    (bs : FVec Ideal S1x49x49 .f32) : FVec Ideal S64x49x32 .f32 :=
  matmul dot_S64x49x49_S64x49x32_S64x49x32_2_1_1_2_0_0 none
    (softmaxVec (scoreVec (projVec x1 wq) (projVec x1 wk) bs msk)) (projVec x1 wv) (constant S64x49x32 .f32 0x00000000#32)

section OneHead

variable (x1 : FVec Ideal S3136x128 .f32) (msk : FVec Ideal S64x49x49 .f32) (wq wk wv : FVec Ideal S32x128 .f32)
  (bs : FVec Ideal S1x49x49 .f32) (w : Fin 64)

theorem score_eq (i j : Fin 49) :
    scoreVec (projVec x1 wq) (projVec x1 wk) bs msk (ix3 w i j)
      = score (rowsOf x1 w) (maskAt msk w) (mat32 wq) (mat32 wk) (slab bs) i j := by
  rw [scoreVec_apply]
  unfold score
  simp only [projVec_apply]

theorem rowMax_eq (i : Fin 49) :
    rowMaxVec (scoreVec (projVec x1 wq) (projVec x1 wk) bs msk) (ix2 w i)
      = rowMax (rowsOf x1 w) (maskAt msk w) (mat32 wq) (mat32 wk) (slab bs) i := by
  rw [rowMaxVec_apply]
  unfold rowMax
  simp only [score_eq]

theorem ex_eq (i j : Fin 49) :
    expVec (scoreVec (projVec x1 wq) (projVec x1 wk) bs msk) (ix3 w i j)
      = ex (rowsOf x1 w) (maskAt msk w) (mat32 wq) (mat32 wk) (slab bs) i j := by
  rw [expVec_apply, score_eq, rowMax_eq]
  rfl

theorem den_eq (i : Fin 49) :
    denVec (scoreVec (projVec x1 wq) (projVec x1 wk) bs msk) (ix2 w i)
      = den (rowsOf x1 w) (maskAt msk w) (mat32 wq) (mat32 wk) (slab bs) i := by
  rw [denVec_apply]
  unfold den
  simp only [ex_eq]

theorem attn_eq (i j : Fin 49) :
    softmaxVec (scoreVec (projVec x1 wq) (projVec x1 wk) bs msk) (ix3 w i j)
      = attn (rowsOf x1 w) (maskAt msk w) (mat32 wq) (mat32 wk) (slab bs) i j := by
  rw [softmaxVec_apply, ex_eq, den_eq]
  rfl

/-- One head's output at window w, row i, column d. -/
theorem headVec_apply (i : Fin 49) (d : Fin 32) :
    headVec x1 msk wq wk wv bs (ix3 w i d)
      = headCtx (rowsOf x1 w) (maskAt msk w) (mat32 wq) (mat32 wk) (mat32 wv) (slab bs) i d := by
  unfold headVec
  refine (Cert.AttnOps.rows_cols_apply _ none _ _ w i d).trans ?_
  unfold headCtx
  refine Finset.sum_congr rfl fun j _ => ?_
  rw [attn_eq, projVec_apply]

end OneHead

/-! ## The joined heads through the output projection -/

def outVec (h0 h1 h2 h3 : FVec Ideal S64x49x32 .f32) (pw : FVec Ideal S128x128 .f32) (pb : FVec Ideal S128 .f32) :
    FVec Ideal S64x49x128 .f32 :=
  shapeCast S64x49x128
    (addf
      (matmul dot_S3136x128_S128x128_S3136x128_1_1_0_0_n_n none
        (shapeCast S3136x128
          (concatenate S64x49x128 2 [⟨S64x49x32, h0⟩, ⟨S64x49x32, h1⟩, ⟨S64x49x32, h2⟩, ⟨S64x49x32, h3⟩]
            concatenates_S64x49x32_S64x49x32_S64x49x32_S64x49x32_S64x49x128_d2)
          shapeCasts_S64x49x128_S3136x128)
        pw (constant S3136x128 .f32 0x00000000#32))
      (broadcastTo S3136x128 (shapeCast S1x128 pb shapeCasts_S128_S1x128) broadcasts_S1x128_S3136x128))
    shapeCasts_S3136x128_S64x49x128

/-- The joined heads at (w, s, c'): head c' / 32 at column c' mod 32. -/
theorem joined_apply (h0 h1 h2 h3 : FVec Ideal S64x49x32 .f32) (f : Fin 4 → Fin 32 → EReal) (w : Fin 64) (s : Fin 49)
    (e0 : ∀ e, h0 (ix3 w s e) = f 0 e) (e1 : ∀ e, h1 (ix3 w s e) = f 1 e) (e2 : ∀ e, h2 (ix3 w s e) = f 2 e)
    (e3 : ∀ e, h3 (ix3 w s e) = f 3 e) (c' : Fin 128) :
    concatenate S64x49x128 2 [⟨S64x49x32, h0⟩, ⟨S64x49x32, h1⟩, ⟨S64x49x32, h2⟩, ⟨S64x49x32, h3⟩]
        concatenates_S64x49x32_S64x49x32_S64x49x32_S64x49x32_S64x49x128_d2 (ix3 w s c')
      = f (headOf c') (colOf c') := by
  have J := Cert.AttnOps.join4_apply h0 h1 h2 h3
    concatenates_S64x49x32_S64x49x32_S64x49x32_S64x49x32_S64x49x128_d2 w s (colOf c') c'
  have hlt := c'.isLt
  have hcases : c'.val / 32 = 0 ∨ c'.val / 32 = 1 ∨ c'.val / 32 = 2 ∨ c'.val / 32 = 3 := by omega
  have hcol : (colOf c').val = c'.val % 32 := rfl
  rcases hcases with h | h | h | h
  · have hh : headOf c' = 0 := Fin.ext h
    rw [J.1 (by rw [hcol]; omega), e0, hh]
  · have hh : headOf c' = 1 := Fin.ext h
    rw [J.2.1 (by rw [hcol]; omega), e1, hh]
  · have hh : headOf c' = 2 := Fin.ext h
    rw [J.2.2.1 (by rw [hcol]; omega), e2, hh]
  · have hh : headOf c' = 3 := Fin.ext h
    rw [J.2.2.2 (by rw [hcol]; omega), e3, hh]

theorem outVec_apply (h0 h1 h2 h3 : FVec Ideal S64x49x32 .f32) (pw : FVec Ideal S128x128 .f32) (pb : FVec Ideal S128 .f32)
    (f : Fin 4 → Fin 32 → EReal) (w : Fin 64) (s : Fin 49)
    (e0 : ∀ e, h0 (ix3 w s e) = f 0 e) (e1 : ∀ e, h1 (ix3 w s e) = f 1 e) (e2 : ∀ e, h2 (ix3 w s e) = f 2 e)
    (e3 : ∀ e, h3 (ix3 w s e) = f 3 e) (c : Fin 128) :
    outVec h0 h1 h2 h3 pw pb (ix3 w s c)
      = (∑ c' : Fin 128, f (headOf c') (colOf c') * pw (ix2 c c')) + pb (ix1 c) := by
  unfold outVec
  refine (Cert.AttnOps.split_rows_apply _ shapeCasts_S3136x128_S64x49x128 w s c (rowOf w s) rfl).trans ?_
  show FloatOps.matmul _ none _ pw (constant S3136x128 .f32 0x00000000#32) (ix2 (rowOf w s) c)
      + broadcastTo S3136x128 (shapeCast S1x128 pb shapeCasts_S128_S1x128) broadcasts_S1x128_S3136x128 (ix2 (rowOf w s) c) = _
  rw [Cert.AttnOps.row_repeated_apply]
  refine congrArg (fun t => t + pb (ix1 c)) ?_
  refine (Cert.MatmulRows.zero_acc_apply _ none _ pw (rowOf w s) c).trans ?_
  refine Finset.sum_congr rfl fun c' _ => ?_
  rw [Cert.AttnOps.merge_rows_apply _ shapeCasts_S64x49x128_S3136x128 w s c' (rowOf w s) rfl,
    joined_apply h0 h1 h2 h3 f w s e0 e1 e2 e3 c']

/-! ## The generated payload terms are these stages -/

theorem pay5_eq (v1 : FVec Ideal S3136x128 .f32) (wt : Vec Ideal S32x128 .f32) : k0_pay5 v1 wt = projVec v1 wt := rfl
theorem pay6_eq (v1 : FVec Ideal S3136x128 .f32) (wt : Vec Ideal S32x128 .f32) : k0_pay6 v1 wt = projVec v1 wt := rfl
theorem pay8_eq (v1 : FVec Ideal S3136x128 .f32) (wt : Vec Ideal S32x128 .f32) : k0_pay8 v1 wt = projVec v1 wt := rfl

theorem pay3_eq (v0 : Vec Ideal S64x49x128 .f32) (v2 : Vec Ideal S64x49x49 .f32) (v3 v6 v9 : Vec Ideal S32x128 .f32)
    (v15 : Vec Ideal S1x49x49 .f32) : k0_pay3 v0 v2 v3 v6 v9 v15 = headVec (k0_pay2 v0) v2 v3 v6 v9 v15 := rfl

theorem pay4_eq (v1 : FVec Ideal S3136x128 .f32) (v2 : Vec Ideal S64x49x49 .f32) (v33 v36 v39 : Vec Ideal S32x128 .f32)
    (v45 : Vec Ideal S1x49x49 .f32) : k0_pay4 v1 v2 v33 v36 v39 v45 = headVec v1 v2 v33 v36 v39 v45 := rfl

theorem pay7_eq (v1 : FVec Ideal S3136x128 .f32) (v2 : Vec Ideal S64x49x49 .f32) (v63 v66 v69 : Vec Ideal S32x128 .f32)
    (v75 : Vec Ideal S1x49x49 .f32) :
    k0_pay7 v1 v2 (k0_pay5 v1 v63) (k0_pay6 v1 v66) v69 v75 = headVec v1 v2 v63 v66 v69 v75 := rfl

theorem pay1_eq (v1 : FVec Ideal S3136x128 .f32) (v2 : Vec Ideal S64x49x49 .f32) (v32 v62 v92 : FVec Ideal S64x49x32 .f32)
    (v93 v96 v99 : Vec Ideal S32x128 .f32) (v105 : Vec Ideal S1x49x49 .f32) (v125 : Vec Ideal S128x128 .f32)
    (v127 : Vec Ideal S128 .f32) :
    k0_pay1 v2 v32 v62 v92 (k0_pay8 v1 v99) (k0_pay9 v1 v93 v96) v105 v125 v127
      = outVec v32 v62 v92 (headVec v1 v2 v93 v96 v99 v105) v125 v127 := rfl

/-! ## The whole body at an entry -/

/-- Window w's rows of the merged block are the block's rows (w, ·). -/
theorem rowsOf_merged (v0 : Vec Ideal S64x49x128 .f32) (w : Fin 64) :
    rowsOf (k0_pay2 v0) w = fun s c => v0 (ix3 w s c) := by
  funext s c
  exact Cert.AttnOps.merge_rows_apply v0 shapeCasts_S64x49x128_S3136x128 w s c (rowOf w s) rfl

/-- The body's result at window w, row s, column c, from the block of 64 windows, the masks, each head's 32 rows of the
    three projections, each head's bias slab, the output projection and its bias: the window's attention output. -/
theorem body_apply (v0 : Vec Ideal S64x49x128 .f32) (v2 : Vec Ideal S64x49x49 .f32)
    (q0 q1 q2 q3 k0 k1 k2 k3 u0 u1 u2 u3 : Vec Ideal S32x128 .f32) (b0 b1 b2 b3 : Vec Ideal S1x49x49 .f32)
    (pw : Vec Ideal S128x128 .f32) (pb : Vec Ideal S128 .f32)
    (WQ WK WV : Fin 128 → Fin 128 → EReal) (B : Fin 4 → Fin 49 → Fin 49 → EReal)
    (hq0 : mat32 q0 = wslice WQ 0) (hq1 : mat32 q1 = wslice WQ 1) (hq2 : mat32 q2 = wslice WQ 2) (hq3 : mat32 q3 = wslice WQ 3)
    (hk0 : mat32 k0 = wslice WK 0) (hk1 : mat32 k1 = wslice WK 1) (hk2 : mat32 k2 = wslice WK 2) (hk3 : mat32 k3 = wslice WK 3)
    (hu0 : mat32 u0 = wslice WV 0) (hu1 : mat32 u1 = wslice WV 1) (hu2 : mat32 u2 = wslice WV 2) (hu3 : mat32 u3 = wslice WV 3)
    (hb0 : slab b0 = B 0) (hb1 : slab b1 = B 1) (hb2 : slab b2 = B 2) (hb3 : slab b3 = B 3)
    (w : Fin 64) (s : Fin 49) (c : Fin 128) :
    k0_pay1 v2 (k0_pay3 v0 v2 q0 k0 u0 b0) (k0_pay4 (k0_pay2 v0) v2 q1 k1 u1 b1)
        (k0_pay7 (k0_pay2 v0) v2 (k0_pay5 (k0_pay2 v0) q2) (k0_pay6 (k0_pay2 v0) k2) u2 b2)
        (k0_pay8 (k0_pay2 v0) u3) (k0_pay9 (k0_pay2 v0) q3 k3) b3 pw pb (ix3 w s c)
      = winOut (fun s c => v0 (ix3 w s c)) (maskAt v2 w) WQ WK WV (fun j c => pw (ix2 j c)) (fun c => pb (ix1 c)) B s c := by
  rw [pay1_eq, pay3_eq, pay4_eq, pay7_eq]
  refine (outVec_apply _ _ _ _ pw pb
    (fun h e => headCtx (fun s c => v0 (ix3 w s c)) (maskAt v2 w) (wslice WQ h) (wslice WK h) (wslice WV h) (B h) s e) w s
    (fun e => ?_) (fun e => ?_) (fun e => ?_) (fun e => ?_) c).trans ?_
  · rw [headVec_apply, rowsOf_merged, hq0, hk0, hu0, hb0]
  · rw [headVec_apply, rowsOf_merged, hq1, hk1, hu1, hb1]
  · rw [headVec_apply, rowsOf_merged, hq2, hk2, hu2, hb2]
  · rw [headVec_apply, rowsOf_merged, hq3, hk3, hu3, hb3]
  · rfl

end Cert.KernelIdeal.Head

end
-- ==== Proof.KernelValue.lean ====
/-
  From the image blocks to the whole array.

  Grid point t of the 64 works on image t: windows 64 t, ..., 64 t + 63.  Its block of the input is those windows' rows;
  the masks, the four projection matrices, the bias vector and the position-bias slabs are the same whole arrays at every
  point; the body loads each head's 32 rows of a projection matrix and its slab out of them.  So what point t writes back
  is block t of one function of the arrays (AttnSpec.G): window 64 t + w uses mask (64 t + w) mod 64 = w.  The 64 blocks
  cover the 4096 windows, so the result array is that function.
-/
import proofs.«153229_j16698832847103_1_alg».proof.Proof.Gen.KernelIdeal.Value
import proofs.«153229_j16698832847103_1_alg».proof.Proof.KernelHead

set_option maxRecDepth 16384

noncomputable section

open scoped BigOperators

namespace Cert.KernelIdeal.Whole

open Cert.KernelIdeal Cert.KernelIdeal.Gen Cert.KernelIdeal.Head Idealize.ShloMosaic Idealize.ShloMosaic.TcCoe
open Idealize.SL.Sem Idealize.ShloMosaic.ValueIdx Cert.AttnSpec
open Idealize.ShloMosaic.Pipeline (Dat)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's loads of 32 rows and of one slab -/

section Loads

variable (x : Vec Ideal S128x128 .f32) (y : Vec Ideal S4x49x49 .f32)

theorem rows0 : mat32 (View.ld x r0_2) = wslice (fun j c => x (ix2 j c)) 0 := by
  funext d c
  show x (r0_2.emb (ix2 d c)) = x (ix2 (hd 0 d) c)
  refine congrArg x (funext fun a => Fin.ext ?_)
  match a with
  | ⟨0, _⟩ => show 0 + 1 * d.val = 32 * 0 + d.val; omega
  | ⟨1, _⟩ => show 0 + 1 * c.val = c.val; omega

theorem rows1 : mat32 (View.ld x r0_4) = wslice (fun j c => x (ix2 j c)) 1 := by
  funext d c
  show x (r0_4.emb (ix2 d c)) = x (ix2 (hd 1 d) c)
  refine congrArg x (funext fun a => Fin.ext ?_)
  match a with
  | ⟨0, _⟩ => show 32 + 1 * d.val = 32 * 1 + d.val; omega
  | ⟨1, _⟩ => show 0 + 1 * c.val = c.val; omega

theorem rows2 : mat32 (View.ld x r0_6) = wslice (fun j c => x (ix2 j c)) 2 := by
  funext d c
  show x (r0_6.emb (ix2 d c)) = x (ix2 (hd 2 d) c)
  refine congrArg x (funext fun a => Fin.ext ?_)
  match a with
  | ⟨0, _⟩ => show 64 + 1 * d.val = 32 * 2 + d.val; omega
  | ⟨1, _⟩ => show 0 + 1 * c.val = c.val; omega

theorem rows3 : mat32 (View.ld x r0_8) = wslice (fun j c => x (ix2 j c)) 3 := by
  funext d c
  show x (r0_8.emb (ix2 d c)) = x (ix2 (hd 3 d) c)
  refine congrArg x (funext fun a => Fin.ext ?_)
  match a with
  | ⟨0, _⟩ => show 96 + 1 * d.val = 32 * 3 + d.val; omega
  | ⟨1, _⟩ => show 0 + 1 * c.val = c.val; omega

theorem slab0 : slab (View.ld y r0_3) = (fun h p q => y (ix3 h p q)) 0 := by
  funext p q
  show y (r0_3.emb (ix3 (0 : Fin 1) p q)) = y (ix3 (0 : Fin 4) p q)
  refine congrArg y (funext fun a => Fin.ext ?_)
  match a with
  | ⟨0, _⟩ => rfl
  | ⟨1, _⟩ => show 0 + 1 * p.val = p.val; omega
  | ⟨2, _⟩ => show 0 + 1 * q.val = q.val; omega

theorem slab1 : slab (View.ld y r0_5) = (fun h p q => y (ix3 h p q)) 1 := by
  funext p q
  show y (r0_5.emb (ix3 (0 : Fin 1) p q)) = y (ix3 (1 : Fin 4) p q)
  refine congrArg y (funext fun a => Fin.ext ?_)
  match a with
  | ⟨0, _⟩ => rfl
  | ⟨1, _⟩ => show 0 + 1 * p.val = p.val; omega
  | ⟨2, _⟩ => show 0 + 1 * q.val = q.val; omega

theorem slab2 : slab (View.ld y r0_7) = (fun h p q => y (ix3 h p q)) 2 := by
  funext p q
  show y (r0_7.emb (ix3 (0 : Fin 1) p q)) = y (ix3 (2 : Fin 4) p q)
  refine congrArg y (funext fun a => Fin.ext ?_)
  match a with
  | ⟨0, _⟩ => rfl
  | ⟨1, _⟩ => show 0 + 1 * p.val = p.val; omega
  | ⟨2, _⟩ => show 0 + 1 * q.val = q.val; omega

theorem slab3 : slab (View.ld y r0_9) = (fun h p q => y (ix3 h p q)) 3 := by
  funext p q
  show y (r0_9.emb (ix3 (0 : Fin 1) p q)) = y (ix3 (3 : Fin 4) p q)
  refine congrArg y (funext fun a => Fin.ext ?_)
  match a with
  | ⟨0, _⟩ => rfl
  | ⟨1, _⟩ => show 0 + 1 * p.val = p.val; omega
  | ⟨2, _⟩ => show 0 + 1 * q.val = q.val; omega

end Loads

/-! ## What the body leaves in the output buffer, at an entry -/

/-- From the eight input blocks: at window w, row s, column c the window's attention output. -/
theorem out_apply (x0 : Vec Ideal S64x49x128 .f32) (x1 : Vec Ideal S64x49x49 .f32) (x2 x3 x4 x5 : Vec Ideal S128x128 .f32)
    (x6 : Vec Ideal S128 .f32) (x7 : Vec Ideal S4x49x49 .f32) (w : Fin 64) (s : Fin 49) (c : Fin 128) :
    out0_8 x0 x1 x2 x3 x4 x5 x6 x7 (ix3 w s c)
      = winOut (fun s c => x0 (ix3 w s c)) (fun p q => x1 (ix3 w p q)) (fun j c => x2 (ix2 j c)) (fun j c => x3 (ix2 j c))
          (fun j c => x4 (ix2 j c)) (fun j c => x5 (ix2 j c)) (fun c => x6 (ix1 c)) (fun h p q => x7 (ix3 h p q)) s c := by
  unfold out0_8
  rw [View.canon_unit_zero hz3]
  simp only [View.ld_unit_zero (S := S64x49x128) hz3, View.ld_unit_zero (S := S64x49x49) hz3,
    View.ld_unit_zero (S := S128x128) hz2, View.ld_unit_zero (S := S128) hz1]
  exact body_apply x0 x1 (View.ld x2 r0_2) (View.ld x2 r0_4) (View.ld x2 r0_6) (View.ld x2 r0_8)
    (View.ld x3 r0_2) (View.ld x3 r0_4) (View.ld x3 r0_6) (View.ld x3 r0_8)
    (View.ld x4 r0_2) (View.ld x4 r0_4) (View.ld x4 r0_6) (View.ld x4 r0_8)
    (View.ld x7 r0_3) (View.ld x7 r0_5) (View.ld x7 r0_7) (View.ld x7 r0_9) x5 x6
    (fun j c => x2 (ix2 j c)) (fun j c => x3 (ix2 j c)) (fun j c => x4 (ix2 j c)) (fun h p q => x7 (ix3 h p q))
    (rows0 x2) (rows1 x2) (rows2 x2) (rows3 x2) (rows0 x3) (rows1 x3) (rows2 x3) (rows3 x3)
    (rows0 x4) (rows1 x4) (rows2 x4) (rows3 x4) (slab0 x7) (slab1 x7) (slab2 x7) (slab3 x7) w s c

/-! ## Point t's block -/

variable (m : (ℓ : Loc nD τ sig) → Buf (Elt Ideal) ℓ) (ρ : Dev nD → PrngReg)

/-- The result as one function of the arrays as the region finds them. -/
abbrev GV (c : Dev nD) : S4096x49x128.Idx → EReal :=
  G (V m c main_arg0) (V m c main_arg1) (V m c main_arg2) (V m c main_arg3) (V m c main_arg4) (V m c main_arg5)
    (V m c main_arg6) (V m c main_v9)

/-- The printed index maps over the 64 points: the input and output blocks move with the point along the window axis,
    every other window stays at block 0. -/
theorem idx_facts : ∀ t : Fin cfg0.N,
    win0_0.index t (0 : Fin 3) = t.val ∧ win0_0.index t (1 : Fin 3) = 0 ∧ win0_0.index t (2 : Fin 3) = 0
    ∧ win0_8.index t (0 : Fin 3) = t.val ∧ win0_8.index t (1 : Fin 3) = 0 ∧ win0_8.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 3) = 0 ∧ win0_7.index t (1 : Fin 3) = 0 ∧ win0_7.index t (2 : Fin 3) = 0 :=
  (by decide +kernel : ∀ t : Fin grid0.N, _)

/-- WHAT POINT t WRITES BACK is block t of the one function. -/
theorem flushed8_eq (c : Dev nD) (t : Fin cfg0.N) :
    (dats m 0 c).flushed 8 t = ((cfg0.win 8).blk t).view.read (Elt Ideal) (GV m c) := by
  rw [Cert.KernelIdeal.Value.flushed8]
  obtain ⟨f00, f01, f02, f80, f81, f82, f10, f11, f12, f20, f21, f30, f31, f40, f41, f50, f51, f60, f70, f71, f72⟩ := idx_facts t
  have ht : t.val < 64 := t.isLt
  funext j
  obtain ⟨w, s, cc, rfl⟩ : ∃ (w : Fin 64) (s : Fin 49) (cc : Fin 128), j = ix3 w s cc := ⟨j 0, j 1, j 2, eq_ix3 j⟩
  have hw : w.val < 64 := w.isLt
  have hs : s.val < 49 := s.isLt
  have hcc : cc.val < 128 := cc.isLt
  show out0_8 (iblk m c 0 t) (iblk m c 1 t) (iblk m c 2 t) (iblk m c 3 t) (iblk m c 4 t) (iblk m c 5 t) (iblk m c 6 t)
      (iblk m c 7 t) (ix3 w s cc) = GV m c (((cfg0.win 8).blk t).view.emb (ix3 w s cc))
  refine (out_apply (iblk m c 0 t) (iblk m c 1 t) (iblk m c 2 t) (iblk m c 3 t) (iblk m c 4 t) (iblk m c 5 t)
    (iblk m c 6 t) (iblk m c 7 t) w s cc).trans ?_
  have hb : t.val * 64 + w.val < 4096 := by omega
  have hi : ((cfg0.win 8).blk t).view.emb (ix3 w s cc) = ix3 (⟨t.val * 64 + w.val, hb⟩ : Fin 4096) s cc := by
    funext a; apply Fin.ext
    match a with
    | ⟨0, _⟩ => show win0_8.index t (0 : Fin 3) * 64 + 1 * w.val = t.val * 64 + w.val; omega
    | ⟨1, _⟩ => show win0_8.index t (1 : Fin 3) * 49 + 1 * s.val = s.val; omega
    | ⟨2, _⟩ => show win0_8.index t (2 : Fin 3) * 128 + 1 * cc.val = cc.val; omega
  rw [hi]
  have hmask : maskOf (⟨t.val * 64 + w.val, hb⟩ : Fin 4096) = w := Fin.ext (by show (t.val * 64 + w.val) % 64 = w.val; omega)
  have h0 : (fun s' e => iblk m c 0 t (ix3 w s' e)) = fun s' e => V m c main_arg0 (ix3 (⟨t.val * 64 + w.val, hb⟩ : Fin 4096) s' e) := by
    funext s' c'
    show V m c main_arg0 (((cfg0.win 0).blk t).view.emb (ix3 w s' c')) = _
    refine congrArg (V m c main_arg0) (funext fun a => Fin.ext ?_)
    have hs' : s'.val < 49 := s'.isLt
    have hc' : c'.val < 128 := c'.isLt
    match a with
    | ⟨0, _⟩ => show win0_0.index t (0 : Fin 3) * 64 + 1 * w.val = t.val * 64 + w.val; omega
    | ⟨1, _⟩ => show win0_0.index t (1 : Fin 3) * 49 + 1 * s'.val = s'.val; omega
    | ⟨2, _⟩ => show win0_0.index t (2 : Fin 3) * 128 + 1 * c'.val = c'.val; omega
  have h1 : (fun p q => iblk m c 1 t (ix3 w p q)) = fun p q => V m c main_arg1 (ix3 w p q) := by
    funext p q
    show V m c main_arg1 (((cfg0.win 1).blk t).view.emb (ix3 w p q)) = _
    refine congrArg (V m c main_arg1) (funext fun a => Fin.ext ?_)
    match a with
    | ⟨0, _⟩ => show win0_1.index t (0 : Fin 3) * 64 + 1 * w.val = w.val; omega
    | ⟨1, _⟩ => show win0_1.index t (1 : Fin 3) * 49 + 1 * p.val = p.val; omega
    | ⟨2, _⟩ => show win0_1.index t (2 : Fin 3) * 49 + 1 * q.val = q.val; omega
  have h2 : (fun j e => iblk m c 2 t (ix2 j e)) = fun j e => V m c main_arg2 (ix2 j e) := by
    funext p q
    show V m c main_arg2 (((cfg0.win 2).blk t).view.emb (ix2 p q)) = _
    refine congrArg (V m c main_arg2) (funext fun a => Fin.ext ?_)
    match a with
    | ⟨0, _⟩ => show win0_2.index t (0 : Fin 2) * 128 + 1 * p.val = p.val; omega
    | ⟨1, _⟩ => show win0_2.index t (1 : Fin 2) * 128 + 1 * q.val = q.val; omega
  have h3 : (fun j e => iblk m c 3 t (ix2 j e)) = fun j e => V m c main_arg3 (ix2 j e) := by
    funext p q
    show V m c main_arg3 (((cfg0.win 3).blk t).view.emb (ix2 p q)) = _
    refine congrArg (V m c main_arg3) (funext fun a => Fin.ext ?_)
    match a with
    | ⟨0, _⟩ => show win0_3.index t (0 : Fin 2) * 128 + 1 * p.val = p.val; omega
    | ⟨1, _⟩ => show win0_3.index t (1 : Fin 2) * 128 + 1 * q.val = q.val; omega
  have h4 : (fun j e => iblk m c 4 t (ix2 j e)) = fun j e => V m c main_arg4 (ix2 j e) := by
    funext p q
    show V m c main_arg4 (((cfg0.win 4).blk t).view.emb (ix2 p q)) = _
    refine congrArg (V m c main_arg4) (funext fun a => Fin.ext ?_)
    match a with
    | ⟨0, _⟩ => show win0_4.index t (0 : Fin 2) * 128 + 1 * p.val = p.val; omega
    | ⟨1, _⟩ => show win0_4.index t (1 : Fin 2) * 128 + 1 * q.val = q.val; omega
  have h5 : (fun j e => iblk m c 5 t (ix2 j e)) = fun j e => V m c main_arg5 (ix2 j e) := by
    funext p q
    show V m c main_arg5 (((cfg0.win 5).blk t).view.emb (ix2 p q)) = _
    refine congrArg (V m c main_arg5) (funext fun a => Fin.ext ?_)
    match a with
    | ⟨0, _⟩ => show win0_5.index t (0 : Fin 2) * 128 + 1 * p.val = p.val; omega
    | ⟨1, _⟩ => show win0_5.index t (1 : Fin 2) * 128 + 1 * q.val = q.val; omega
  have h6 : (fun e => iblk m c 6 t (ix1 e)) = fun e => V m c main_arg6 (ix1 e) := by
    funext p
    show V m c main_arg6 (((cfg0.win 6).blk t).view.emb (ix1 p)) = _
    refine congrArg (V m c main_arg6) (funext fun a => Fin.ext ?_)
    match a with
    | ⟨0, _⟩ => show win0_6.index t (0 : Fin 1) * 128 + 1 * p.val = p.val; omega
  have h7 : (fun h p q => iblk m c 7 t (ix3 h p q)) = fun h p q => V m c main_v9 (ix3 h p q) := by
    funext h p q
    show V m c main_v9 (((cfg0.win 7).blk t).view.emb (ix3 h p q)) = _
    refine congrArg (V m c main_v9) (funext fun a => Fin.ext ?_)
    match a with
    | ⟨0, _⟩ => show win0_7.index t (0 : Fin 3) * 4 + 1 * h.val = h.val; omega
    | ⟨1, _⟩ => show win0_7.index t (1 : Fin 3) * 49 + 1 * p.val = p.val; omega
    | ⟨2, _⟩ => show win0_7.index t (2 : Fin 3) * 49 + 1 * q.val = q.val; omega
  rw [h0, h1, h2, h3, h4, h5, h6, h7]
  show _ = winOut (fun s' e => V m c main_arg0 (ix3 (⟨t.val * 64 + w.val, hb⟩ : Fin 4096) s' e))
    (fun p q => V m c main_arg1 (ix3 (maskOf (⟨t.val * 64 + w.val, hb⟩ : Fin 4096)) p q)) _ _ _ _ _ _ s cc
  rw [hmask]

/-! ## The cover, and the array -/

theorem mem_blk8 (t : Fin cfg0.N) (i : S4096x49x128.Idx) :
    i ∈ ((cfg0.win 8).blk t).view.set ↔ ∀ a : Fin 3, win0_8.index t a * S64x49x128.size a ≤ (i a).val
      ∧ (i a).val < win0_8.index t a * S64x49x128.size a + S64x49x128.size a := by
  show i ∈ ((View.whole main_v10).slice (win0_8.rect t)).set ↔ _
  rw [View.set_slice_whole, Rect.mem_set_unit]
  exact Iff.rfl

/-- Window b lies in the block of point b / 64. -/
theorem cover8 (i : S4096x49x128.Idx) :
    ∃ t : Fin cfg0.N, (cfg0.win 8).flush t = true ∧ i ∈ ((cfg0.win 8).blk t).view.set := by
  have h0 : (i 0).val < 4096 := (i 0).isLt
  have h1 : (i 1).val < 49 := (i 1).isLt
  have h2 : (i 2).val < 128 := (i 2).isLt
  have hq : (i 0).val / 64 < 64 := by omega
  refine ⟨(⟨(i 0).val / 64, hq⟩ : Fin cfg0.N), flush0_8 _, ?_⟩
  rw [mem_blk8]
  obtain ⟨-, -, -, f80, f81, f82, -⟩ := idx_facts (⟨(i 0).val / 64, hq⟩ : Fin cfg0.N)
  have f80' : win0_8.index (⟨(i 0).val / 64, hq⟩ : Fin cfg0.N) (0 : Fin 3) = (i 0).val / 64 := f80
  intro a
  match a with
  | ⟨0, _⟩ =>
    show win0_8.index (⟨(i 0).val / 64, hq⟩ : Fin cfg0.N) (0 : Fin 3) * 64 ≤ (i 0).val
      ∧ (i 0).val < win0_8.index (⟨(i 0).val / 64, hq⟩ : Fin cfg0.N) (0 : Fin 3) * 64 + 64
    omega
  | ⟨1, _⟩ =>
    show win0_8.index (⟨(i 0).val / 64, hq⟩ : Fin cfg0.N) (1 : Fin 3) * 49 ≤ (i 1).val
      ∧ (i 1).val < win0_8.index (⟨(i 0).val / 64, hq⟩ : Fin cfg0.N) (1 : Fin 3) * 49 + 49
    omega
  | ⟨2, _⟩ =>
    show win0_8.index (⟨(i 0).val / 64, hq⟩ : Fin cfg0.N) (2 : Fin 3) * 128 ≤ (i 2).val
      ∧ (i 2).val < win0_8.index (⟨(i 0).val / 64, hq⟩ : Fin cfg0.N) (2 : Fin 3) * 128 + 128
    omega

/-- THE ARRAY after the run is the one function of the arrays as the region finds them. -/
theorem final8 (c : Dev nD) : (dats m 0 c).arrAt 8 cfg0.N = GV m c :=
  (dats m 0 c).arrAt_eq_of_cover 8 (GV m c) (fun t _ => flushed8_eq m c t) cover8

/-- The run, read: the result array at the one function, the arguments unchanged. -/
theorem run : θ_run defs (onTc (τ := τ) (main (F := Ideal))) ⟨m, fun _ => 0, ρ⟩ fun r => ∀ c : Dev nD,
      r.2.mem ((c : Thread nD τ).loc main_v10) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2⟩)
    (Cert.KernelIdeal.Value.run_blocks m ρ)

end Cert.KernelIdeal.Whole

end
-- ==== Proof.RefStages.lean ====
/-
  The reference, stage by stage, read at an entry.

  The reference projects all 4096 windows at once and splits the 128 output features into 4 heads of 32 by a reshape and
  a transpose; feature 32 h + d is column d of head h.  Scores, position bias (one [4, 49, 49] table for all windows),
  masks (window b takes mask b mod 64, through a reshape of the window axis into 64 x 64), softmax and the weighted sum
  of values follow, head by head; the heads are laid back side by side and go through the output projection.

  Each stage of its run is read here at an index as the specification's quantity (AttnSpec) for window b, so that the
  whole result is AttnSpec.G of the arguments and the position-bias table.
-/
import proofs.«153229_j16698832847103_1_alg».proof.Proof.Gen.ReferenceIdeal.Read
import proofs.«153229_j16698832847103_1_alg».proof.Proof.LibAttnOps
import proofs.«153229_j16698832847103_1_alg».proof.Proof.AttnSpec

noncomputable section

open scoped BigOperators

namespace Cert.ReferenceIdeal.Stages

open Cert.ReferenceIdeal Cert.ReferenceIdeal.Gen Cert.ReferenceIdeal.Read Idealize.ShloMosaic Idealize.ShloMosaic.ValueIdx Cert.AttnSpec

variable (x0 : (⟨S4096x49x128, .f32⟩ : BufTy).Contents (Elt Ideal)) (x1 : (⟨S64x49x49, .f32⟩ : BufTy).Contents (Elt Ideal))
  (x2 x3 x4 x5 : (⟨S128x128, .f32⟩ : BufTy).Contents (Elt Ideal)) (x6 : (⟨S128, .f32⟩ : BufTy).Contents (Elt Ideal))
  (x7 : (⟨S169x4, .f32⟩ : BufTy).Contents (Elt Ideal)) (x8 : (⟨S49x49, .i32⟩ : BufTy).Contents (Elt Ideal))

/-- Window b's rows. -/
def Xw (b : Fin 4096) : Fin 49 → Fin 128 → EReal := fun s c => x0 (ix3 b s c)
/-- Window b's mask. -/
def Mw (b : Fin 4096) : Fin 49 → Fin 49 → EReal := fun p q => x1 (ix3 (maskOf b) p q)
/-- A [128, 128] matrix as a function of row and column. -/
def Wf (x : (⟨S128x128, .f32⟩ : BufTy).Contents (Elt Ideal)) : Fin 128 → Fin 128 → EReal := fun j c => x (ix2 j c)
/-- The position-bias table [4, 49, 49] the program gathers, as a function of head and the two positions. -/
def Bf : Fin 4 → Fin 49 → Fin 49 → EReal := fun h p q => val_main_v21 (F := Ideal) x7 x8 (ix3 h p q)

/-! ## A head's projection -/

theorem proj_apply (x : (⟨S128x128, .f32⟩ : BufTy).Contents (Elt Ideal)) (b : Fin 4096) (h : Fin 4) (s : Fin 49) (d : Fin 32) :
    val_main_v2 (F := Ideal) x0 x (ix4 b h s d) = lin (Xw x0 b) (wslice (Wf x) h) s d := by
  rw [val_main_v2_apply, val_main_v1_apply, val_main_v0_apply]
  unfold lin
  refine Finset.sum_congr rfl fun k _ => ?_
  have hb := b.isLt; have hh := h.isLt; have hs := s.isLt; have hd' := d.isLt
  have el : lidx_main_v0 (idx_main_v1 (idx_main_v2 (ix4 b h s d))) k = ix3 b s k := funext fun a => Fin.ext (by
    match a with
    | ⟨0, _⟩ => show (((b.val * 49 + s.val) * 4 + h.val) * 32 + d.val) / 6272 = b.val; omega
    | ⟨1, _⟩ => show (((b.val * 49 + s.val) * 4 + h.val) * 32 + d.val) / 128 % 49 = s.val; omega
    | ⟨2, _⟩ => rfl)
  have er : ridx_main_v0 (idx_main_v1 (idx_main_v2 (ix4 b h s d))) k = ix2 (hd h d) k := funext fun a => Fin.ext (by
    match a with
    | ⟨0, _⟩ => show (((b.val * 49 + s.val) * 4 + h.val) * 32 + d.val) % 128 = 32 * h.val + d.val; omega
    | ⟨1, _⟩ => rfl)
  rw [el, er]
  rfl

/-! ## The scores -/

theorem pre_mask_apply (b : Fin 4096) (h : Fin 4) (i j : Fin 49) :
    val_main_v24 (F := Ideal) x0 x2 x3 x7 x8 (ix4 b h i j)
      = (∑ d : Fin 32, lin (Xw x0 b) (wslice (Wf x2) h) i d * lin (Xw x0 b) (wslice (Wf x3) h) j d) * scale
        + Bf x7 x8 h i j := by
  rw [val_main_v24_apply, val_main_v11_apply, val_main_v9_apply, val_main_v10_apply, val_main_cst_apply,
    val_main_v23_apply, val_main_v22_apply]
  have e1 : ∀ d, lidx_main_v9 (ix4 b h i j) d = ix4 b h i d := fun d => funext fun a => Fin.ext (by
    match a with
    | ⟨0, _⟩ => rfl
    | ⟨1, _⟩ => rfl
    | ⟨2, _⟩ => rfl
    | ⟨3, _⟩ => rfl)
  have e2 : ∀ d, ridx_main_v9 (ix4 b h i j) d = ix4 b h j d := fun d => funext fun a => Fin.ext (by
    match a with
    | ⟨0, _⟩ => rfl
    | ⟨1, _⟩ => rfl
    | ⟨2, _⟩ => rfl
    | ⟨3, _⟩ => rfl)
  have e3 : idx_main_v22 (idx_main_v23 (ix4 b h i j)) = ix3 h i j := funext fun a => Fin.ext (by
    match a with
    | ⟨0, _⟩ => rfl
    | ⟨1, _⟩ => rfl
    | ⟨2, _⟩ => rfl)
  have p2 : ∀ d, val_main_v2 (F := Ideal) x0 x2 (ix4 b h i d) = lin (Xw x0 b) (wslice (Wf x2) h) i d :=
    fun d => proj_apply x0 x2 b h i d
  have p5 : ∀ d, val_main_v5 (F := Ideal) x0 x3 (ix4 b h j d) = lin (Xw x0 b) (wslice (Wf x3) h) j d :=
    fun d => proj_apply x0 x3 b h j d
  simp only [e1, e2, e3, p2, p5]
  rfl

theorem score_apply (b : Fin 4096) (h : Fin 4) (i j : Fin 49) :
    val_main_v29 (F := Ideal) x0 x1 x2 x3 x7 x8 (ix4 b h i j)
      = score (Xw x0 b) (Mw x1 b) (wslice (Wf x2) h) (wslice (Wf x3) h) (Bf x7 x8 h) i j := by
  have hb := b.isLt; have hh := h.isLt; have hi := i.isLt; have hj := j.isLt
  have hq : b.val / 64 < 64 := by omega
  have e0 : idx_main_v29 (ix4 b h i j) = ix5 (⟨b.val / 64, hq⟩ : Fin 64) (maskOf b) h i j := funext fun a => Fin.ext (by
    match a with
    | ⟨0, _⟩ => show (((b.val * 4 + h.val) * 49 + i.val) * 49 + j.val) / 614656 = b.val / 64; omega
    | ⟨1, _⟩ => show (((b.val * 4 + h.val) * 49 + i.val) * 49 + j.val) / 9604 % 64 = b.val % 64; omega
    | ⟨2, _⟩ => show (((b.val * 4 + h.val) * 49 + i.val) * 49 + j.val) / 2401 % 4 = h.val; omega
    | ⟨3, _⟩ => show (((b.val * 4 + h.val) * 49 + i.val) * 49 + j.val) / 49 % 49 = i.val; omega
    | ⟨4, _⟩ => show (((b.val * 4 + h.val) * 49 + i.val) * 49 + j.val) % 49 = j.val; omega)
  have e1 : idx_main_v25 (ix5 (⟨b.val / 64, hq⟩ : Fin 64) (maskOf b) h i j) = ix4 b h i j := funext fun a => Fin.ext (by
    match a with
    | ⟨0, _⟩ => show (((((b.val / 64) * 64 + b.val % 64) * 4 + h.val) * 49 + i.val) * 49 + j.val) / 9604 = b.val; omega
    | ⟨1, _⟩ => show (((((b.val / 64) * 64 + b.val % 64) * 4 + h.val) * 49 + i.val) * 49 + j.val) / 2401 % 4 = h.val; omega
    | ⟨2, _⟩ => show (((((b.val / 64) * 64 + b.val % 64) * 4 + h.val) * 49 + i.val) * 49 + j.val) / 49 % 49 = i.val; omega
    | ⟨3, _⟩ => show (((((b.val / 64) * 64 + b.val % 64) * 4 + h.val) * 49 + i.val) * 49 + j.val) % 49 = j.val; omega)
  have e2 : idx_main_v26 (idx_main_v27 (ix5 (⟨b.val / 64, hq⟩ : Fin 64) (maskOf b) h i j)) = ix3 (maskOf b) i j :=
    funext fun a => Fin.ext (by
      match a with
      | ⟨0, _⟩ => rfl
      | ⟨1, _⟩ => rfl
      | ⟨2, _⟩ => rfl)
  rw [val_main_v29_apply, val_main_v28_apply, val_main_v25_apply, val_main_v27_apply, val_main_v26_apply, e0, e1, e2,
    pre_mask_apply]
  rfl

/-! ## The softmax along the key axis -/

theorem rowMax_apply (b : Fin 4096) (h : Fin 4) (i : Fin 49) :
    val_main_v32 (F := Ideal) x0 x1 x2 x3 x7 x8 (ix3 b h i)
      = rowMax (Xw x0 b) (Mw x1 b) (wslice (Wf x2) h) (wslice (Wf x3) h) (Bf x7 x8 h) i := by
  rw [val_main_v32_apply, val_main_v31_apply, val_main_cst_2_apply]
  unfold val_main_v30
  rw [Cert.AttnOps.host_max_last4_apply _ _ reducesTo_S4096x4x49x49_S4096x4x49_d3 (by decide) h_S_ b h i]
  unfold rowMax
  simp only [score_apply]
  rfl

theorem ex_apply (b : Fin 4096) (h : Fin 4) (i j : Fin 49) :
    val_main_v36 (F := Ideal) x0 x1 x2 x3 x7 x8 (ix4 b h i j)
      = ex (Xw x0 b) (Mw x1 b) (wslice (Wf x2) h) (wslice (Wf x3) h) (Bf x7 x8 h) i j := by
  have e : idx_main_v33 (idx_main_v34 (ix4 b h i j)) = ix3 b h i := funext fun a => Fin.ext (by
    match a with
    | ⟨0, _⟩ => rfl
    | ⟨1, _⟩ => rfl
    | ⟨2, _⟩ => rfl)
  rw [val_main_v36_apply, val_main_v35_apply, val_main_v34_apply, val_main_v33_apply, e, score_apply, rowMax_apply]
  rfl

theorem den_apply (b : Fin 4096) (h : Fin 4) (i : Fin 49) :
    val_main_v37 (F := Ideal) x0 x1 x2 x3 x7 x8 (ix3 b h i)
      = den (Xw x0 b) (Mw x1 b) (wslice (Wf x2) h) (wslice (Wf x3) h) (Bf x7 x8 h) i := by
  have e : ∀ k, idx_main_v37 (ix3 b h i) k = ix4 b h i k := fun k => funext fun a => Fin.ext (by
    match a with
    | ⟨0, _⟩ => rfl
    | ⟨1, _⟩ => rfl
    | ⟨2, _⟩ => rfl
    | ⟨3, _⟩ => rfl)
  rw [val_main_v37_apply, val_main_cst_3_apply]
  simp only [e, ex_apply]
  show Ideal.ofBits .f32 0x00000000#32 + _ = _
  rw [Ideal.ofBits_zero_f32, zero_add]
  rfl

theorem attn_apply (b : Fin 4096) (h : Fin 4) (i j : Fin 49) :
    val_main_v40 (F := Ideal) x0 x1 x2 x3 x7 x8 (ix4 b h i j)
      = attn (Xw x0 b) (Mw x1 b) (wslice (Wf x2) h) (wslice (Wf x3) h) (Bf x7 x8 h) i j := by
  have e : idx_main_v38 (idx_main_v39 (ix4 b h i j)) = ix3 b h i := funext fun a => Fin.ext (by
    match a with
    | ⟨0, _⟩ => rfl
    | ⟨1, _⟩ => rfl
    | ⟨2, _⟩ => rfl)
  rw [val_main_v40_apply, val_main_v39_apply, val_main_v38_apply, e, ex_apply, den_apply]
  rfl

/-! ## The heads side by side, and the output projection -/

theorem ctx_apply (b : Fin 4096) (s : Fin 49) (c' : Fin 128) :
    val_main_v43 (F := Ideal) x0 x1 x2 x3 x4 x7 x8 (ix3 b s c')
      = ctxFlat (Xw x0 b) (Mw x1 b) (Wf x2) (Wf x3) (Wf x4) (Bf x7 x8) s c' := by
  have hb := b.isLt; have hs := s.isLt; have hc := c'.isLt
  have e0 : idx_main_v42 (idx_main_v43 (ix3 b s c')) = ix4 b (headOf c') (colOf c') s := funext fun a => Fin.ext (by
    match a with
    | ⟨0, _⟩ => show ((b.val * 49 + s.val) * 128 + c'.val) / 6272 = b.val; omega
    | ⟨1, _⟩ => show ((b.val * 49 + s.val) * 128 + c'.val) / 32 % 4 = c'.val / 32; omega
    | ⟨2, _⟩ => show ((b.val * 49 + s.val) * 128 + c'.val) % 32 = c'.val % 32; omega
    | ⟨3, _⟩ => show ((b.val * 49 + s.val) * 128 + c'.val) / 128 % 49 = s.val; omega)
  have e1 : ∀ k, lidx_main_v41 (ix4 b (headOf c') (colOf c') s) k = ix4 b (headOf c') k (colOf c') :=
    fun k => funext fun a => Fin.ext (by
      match a with
      | ⟨0, _⟩ => rfl
      | ⟨1, _⟩ => rfl
      | ⟨2, _⟩ => rfl
      | ⟨3, _⟩ => rfl)
  have e2 : ∀ k, ridx_main_v41 (ix4 b (headOf c') (colOf c') s) k = ix4 b (headOf c') s k :=
    fun k => funext fun a => Fin.ext (by
      match a with
      | ⟨0, _⟩ => rfl
      | ⟨1, _⟩ => rfl
      | ⟨2, _⟩ => rfl
      | ⟨3, _⟩ => rfl)
  have p8 : ∀ k, val_main_v8 (F := Ideal) x0 x4 (ix4 b (headOf c') k (colOf c'))
      = lin (Xw x0 b) (wslice (Wf x4) (headOf c')) k (colOf c') := fun k => proj_apply x0 x4 b (headOf c') k (colOf c')
  rw [val_main_v43_apply, val_main_v42_apply, e0, val_main_v41_apply]
  simp only [e1, e2, p8, attn_apply]
  unfold ctxFlat headCtx
  exact Finset.sum_congr rfl fun k _ => mul_comm _ _

theorem out_apply (b : Fin 4096) (s : Fin 49) (c : Fin 128) :
    val_main_v47 (F := Ideal) x0 x1 x2 x3 x4 x5 x6 x7 x8 (ix3 b s c)
      = winOut (Xw x0 b) (Mw x1 b) (Wf x2) (Wf x3) (Wf x4) (Wf x5) (fun c => x6 (ix1 c)) (Bf x7 x8) s c := by
  have e1 : ∀ k, lidx_main_v44 (ix3 b s c) k = ix3 b s k := fun k => funext fun a => Fin.ext (by
    match a with
    | ⟨0, _⟩ => rfl
    | ⟨1, _⟩ => rfl
    | ⟨2, _⟩ => rfl)
  have e2 : ∀ k, ridx_main_v44 (ix3 b s c) k = ix2 c k := fun k => funext fun a => Fin.ext (by
    match a with
    | ⟨0, _⟩ => rfl
    | ⟨1, _⟩ => rfl)
  have e3 : idx_main_v45 (idx_main_v46 (ix3 b s c)) = ix1 c := funext fun a => Fin.ext (by
    match a with
    | ⟨0, _⟩ => rfl)
  rw [val_main_v47_apply, val_main_v44_apply, val_main_v46_apply, val_main_v45_apply, e3]
  simp only [e1, e2, ctx_apply]
  rfl

/-- The reference's result term is the one function of its arguments and its position-bias table. -/
theorem result_eq :
    val_main_v47 (F := Ideal) x0 x1 x2 x3 x4 x5 x6 x7 x8
      = G x0 x1 x2 x3 x4 x5 x6 (val_main_v21 (F := Ideal) x7 x8) := by
  funext i
  obtain ⟨b, s, c, rfl⟩ : ∃ (b : Fin 4096) (s : Fin 49) (c : Fin 128), i = ix3 b s c := ⟨i 0, i 1, i 2, eq_ix3 i⟩
  rw [out_apply]
  rfl

end Cert.ReferenceIdeal.Stages

end
-- ==== Proof.lean ====
/-
  Windowed multi-head attention: the kernel against its reference, on the extended reals.

  Both programs compute, for each of the 4096 windows of 49 rows and for each of 4 heads, the queries, keys and values of
  the window's rows (32 rows of each projection matrix per head), the scores q . k times one binary32 scale, plus a
  position bias gathered from a table (the same gather, written the same way, in both programs), plus the mask of the
  window's position in its image (window b takes mask b mod 64); the softmax of the scores along the keys — maximum from
  -inf, exponential of the difference, division by the row's sum —; the weighted sum of the values; and the four heads
  side by side through the output projection plus its bias.

  The kernel does this one image (64 windows) per grid point, on the image's 3136 merged rows, slicing each head's rows out
  of the projection matrices; the reference does it for all windows at once, splitting features into heads by a reshape and
  a transpose.  Read index by index both are one function of the arrays (AttnSpec.G): every sum runs over the same index
  set on both sides, and the only law used beyond re-indexing is that a product of two extended reals commutes (the
  reference multiplies values by weights, the kernel weights by values).  No finiteness of the inputs is needed.

  KernelHead reads the body's stages at an entry, KernelValue carries the 64 blocks to the whole array, RefStages reads the
  reference's run; here the two runs are set side by side.
-/
import proofs.«153229_j16698832847103_1_alg».proof.Defs
import proofs.«153229_j16698832847103_1_alg».proof.Proof.Gen.Kernel
import proofs.«153229_j16698832847103_1_alg».proof.Proof.Gen.Kernel.Frame
import proofs.«153229_j16698832847103_1_alg».proof.Proof.Gen.KernelIdeal
import proofs.«153229_j16698832847103_1_alg».proof.Proof.Gen.KernelIdeal.Frame
import proofs.«153229_j16698832847103_1_alg».proof.Proof.Gen.KernelIdeal.Value
import proofs.«153229_j16698832847103_1_alg».proof.Proof.Gen.ReferenceIdeal
import proofs.«153229_j16698832847103_1_alg».proof.Proof.Gen.ReferenceIdeal.Run
import proofs.«153229_j16698832847103_1_alg».proof.Proof.Gen.ReferenceIdeal.Read
import proofs.«153229_j16698832847103_1_alg».proof.Proof.Gen.Pre_finite_inputs
import proofs.«153229_j16698832847103_1_alg».proof.Proof.KernelValue
import proofs.«153229_j16698832847103_1_alg».proof.Proof.RefStages
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Cert.AttnSpec

/-- The position-bias table the kernel's own host operations leave for the body — the index table flattened, negative
    entries wrapped by the table's length, the rows gathered, laid out as [49, 49, 4] and transposed to [4, 49, 49] — is,
    operation for operation, the table the reference computes from the same two arguments. -/
theorem bias_table_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S4x49x49.Idx → EReal)
      = Cert.ReferenceIdeal.Read.val_main_v21 (F := Ideal)
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  dsimp only [Cert.KernelIdeal.Gen.V, Cert.KernelIdeal.Gen.hostOps0]
  after_results
  rfl

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array ends at G of its arrays (KernelValue) and the
    reference's at G of its arguments (RefStages): the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v47_eq, Cert.ReferenceIdeal.Stages.result_eq, a0, a1, a2, a3, a4, a5, a6, a7, a8]
  show _ = G (Cert.KernelIdeal.Gen.V m c Cert.KernelIdeal.main_arg0) (Cert.KernelIdeal.Gen.V m c Cert.KernelIdeal.main_arg1)
    (Cert.KernelIdeal.Gen.V m c Cert.KernelIdeal.main_arg2) (Cert.KernelIdeal.Gen.V m c Cert.KernelIdeal.main_arg3)
    (Cert.KernelIdeal.Gen.V m c Cert.KernelIdeal.main_arg4) (Cert.KernelIdeal.Gen.V m c Cert.KernelIdeal.main_arg5)
    (Cert.KernelIdeal.Gen.V m c Cert.KernelIdeal.main_arg6) (Cert.KernelIdeal.Gen.V m c Cert.KernelIdeal.main_v9)
  rw [Cert.KernelIdeal.Gen.V_main_arg0, Cert.KernelIdeal.Gen.V_main_arg1, Cert.KernelIdeal.Gen.V_main_arg2,
    Cert.KernelIdeal.Gen.V_main_arg3, Cert.KernelIdeal.Gen.V_main_arg4, Cert.KernelIdeal.Gen.V_main_arg5,
    Cert.KernelIdeal.Gen.V_main_arg6, bias_table_eq]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
